-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v118) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4x4096 : Shape := ⟨4, ![2, 4096, 4, 4096]⟩
abbrev S24x16384 : Shape := ⟨2, ![24, 16384]⟩
abbrev S24 : Shape := ⟨1, ![24]⟩
abbrev S3 : Shape := ⟨1, ![3]⟩
abbrev S_ : Shape := ⟨0, ![]⟩

class Facts : Prop where
  bcast_S_S2x4096x4x4096 : S_.BroadcastsInDim S2x4096x4x4096 (![] : Fin 0 → Fin S2x4096x4x4096.rank)
  reducesTo_S2x4096x4x4096_S_d0_1_2_3 : S2x4096x4x4096.ReducesTo [0, 1, 2, 3] S_
  h_S_ : 0 < S_.numel
  bcast_S_S24x16384 : S_.BroadcastsInDim S24x16384 (![] : Fin 0 → Fin S24x16384.rank)
  reducesTo_S24x16384_S_d0_1 : S24x16384.ReducesTo [0, 1] S_
  bcast_S_S24 : S_.BroadcastsInDim S24 (![] : Fin 0 → Fin S24.rank)
  reducesTo_S24_S_d0 : S24.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S2x4096x4x4096 .f32) (main_arg1 : FVec F S24x16384 .f32) (main_arg2 : FVec F S24 .f32) (main_arg3 : FVec F S3 .f32) : IVec S_ 1 :=
  let main_v0 : FVec F S2x4096x4x4096 .f32 := Host.absf main_arg0
  let main_cst : FVec F S_ .f32 := constant S_ .f32 0x7F800000#32
  let main_v1 : FVec F S2x4096x4x4096 .f32 := broadcastInDim S2x4096x4x4096 ![] bcast_S_S2x4096x4x4096 main_cst
  let main_v2 : IVec S2x4096x4x4096 1 := cmpf .olt main_v0 main_v1
  let main_c : IVec S_ 1 := constantI S_ 1 1#1
  let main_v3 : IVec S_ 1 := (fun x v => Host.reduce IntOp.andi x v reducesTo_S2x4096x4x4096_S_d0_1_2_3 h_S_) main_v2 main_c
  let main_v4 : FVec F S24x16384 .f32 := Host.absf main_arg1
  let main_cst_0 : FVec F S_ .f32 := constant S_ .f32 0x7F800000#32
  let main_v5 : FVec F S24x16384 .f32 := broadcastInDim S24x16384 ![] bcast_S_S24x16384 main_cst_0
  let main_v6 : IVec S24x16384 1 := cmpf .olt main_v4 main_v5
  let main_c_1 : IVec S_ 1 := constantI S_ 1 1#1
  let main_v7 : IVec S_ 1 := (fun x v => Host.reduce IntOp.andi x v reducesTo_S24x16384_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S2x4096x4x4096 : Shape := ⟨4, ![2, 4096, 4, 4096]⟩
abbrev S24x16384 : Shape := ⟨2, ![24, 16384]⟩
abbrev S24 : Shape := ⟨1, ![24]⟩
abbrev S3 : Shape := ⟨1, ![3]⟩
abbrev S8192x16384 : Shape := ⟨2, ![8192, 16384]⟩
abbrev S16384x24 : Shape := ⟨2, ![16384, 24]⟩
abbrev S_ : Shape := ⟨0, ![]⟩
abbrev S16384x128 : Shape := ⟨2, ![16384, 128]⟩
abbrev S8192x128 : Shape := ⟨2, ![8192, 128]⟩
abbrev S128x16384 : Shape := ⟨2, ![128, 16384]⟩
abbrev S128x128 : Shape := ⟨2, ![128, 128]⟩
abbrev S128 : Shape := ⟨1, ![128]⟩
abbrev S128x1 : Shape := ⟨2, ![128, 1]⟩
abbrev S8192x24 : Shape := ⟨2, ![8192, 24]⟩
abbrev S2x4096x24 : Shape := ⟨3, ![2, 4096, 24]⟩
abbrev S1 : Shape := ⟨1, ![1]⟩
abbrev S2x4096x4 : Shape := ⟨3, ![2, 4096, 4]⟩
abbrev S4 : Shape := ⟨1, ![4]⟩
abbrev S1x1x4 : Shape := ⟨3, ![1, 1, 4]⟩
abbrev S2x4096x16 : Shape := ⟨3, ![2, 4096, 16]⟩
abbrev S2x4096x4x4 : Shape := ⟨4, ![2, 4096, 4, 4]⟩
abbrev S16 : Shape := ⟨1, ![16]⟩
abbrev S4x4 : Shape := ⟨2, ![4, 4]⟩
abbrev S1x1x4x4 : Shape := ⟨4, ![1, 1, 4, 4]⟩
abbrev S2x4096x4x1 : Shape := ⟨4, ![2, 4096, 4, 1]⟩
abbrev S2x4096x1x4 : Shape := ⟨4, ![2, 4096, 1, 4]⟩

abbrev nBuf : Space → Nat
  | .hbm => 153
  | .vmem => 5
  | .smem => 0
  | _ => 0

abbrev hbmTy0_0 (i : Nat) : BufTy := match i % 128 with
  | 0 => ⟨S2x4096x4x4096, .f32⟩
  | 1 => ⟨S24x16384, .f32⟩
  | 2 => ⟨S24, .f32⟩
  | 3 => ⟨S3, .f32⟩
  | 4 => ⟨S8192x16384, .f32⟩
  | 5 => ⟨S24x16384, .bf16⟩
  | 6 => ⟨S16384x24, .bf16⟩
  | 7 => ⟨S_, .i32⟩
  | 8 => ⟨S_, .bf16⟩
  | 9 => ⟨S16384x128, .bf16⟩
  | 10 => ⟨S8192x128, .f32⟩
  | 11 => ⟨S8192x24, .f32⟩
  | 12 => ⟨S2x4096x24, .f32⟩
  | 13 => ⟨S1, .f32⟩
  | 14 => ⟨S_, .f32⟩
  | 15 => ⟨S1, .f32⟩
  | 16 => ⟨S_, .f32⟩
  | 17 => ⟨S1, .f32⟩
  | 18 => ⟨S_, .f32⟩
  | 19 => ⟨S2x4096x4, .f32⟩
  | 20 => ⟨S2x4096x4, .f32⟩
  | 21 => ⟨S2x4096x4, .f32⟩
  | 22 => ⟨S4, .f32⟩
  | 23 => ⟨S1x1x4, .f32⟩
  | 24 => ⟨S2x4096x4, .f32⟩
  | 25 => ⟨S2x4096x4, .f32⟩
  | 26 => ⟨S2x4096x4, .f32⟩
  | 27 => ⟨S2x4096x4, .f32⟩
  | 28 => ⟨S_, .f32⟩
  | 29 => ⟨S2x4096x4, .f32⟩
  | 30 => ⟨S2x4096x4, .f32⟩
  | 31 => ⟨S_, .f32⟩
  | 32 => ⟨S2x4096x4, .f32⟩
  | 33 => ⟨S2x4096x4, .f32⟩
  | 34 => ⟨S_, .f32⟩
  | 35 => ⟨S2x4096x4, .f32⟩
  | 36 => ⟨S2x4096x4, .f32⟩
  | 37 => ⟨S2x4096x4, .f32⟩
  | 38 => ⟨S2x4096x4, .f32⟩
  | 39 => ⟨S2x4096x4, .f32⟩
  | 40 => ⟨S4, .f32⟩
  | 41 => ⟨S1x1x4, .f32⟩
  | 42 => ⟨S2x4096x4, .f32⟩
  | 43 => ⟨S2x4096x4, .f32⟩
  | 44 => ⟨S2x4096x4, .f32⟩
  | 45 => ⟨S2x4096x4, .f32⟩
  | 46 => ⟨S_, .f32⟩
  | 47 => ⟨S2x4096x4, .f32⟩
  | 48 => ⟨S2x4096x4, .f32⟩
  | 49 => ⟨S_, .f32⟩
  | 50 => ⟨S2x4096x4, .f32⟩
  | 51 => ⟨S2x4096x4, .f32⟩
  | 52 => ⟨S_, .f32⟩
  | 53 => ⟨S2x4096x4, .f32⟩
  | 54 => ⟨S2x4096x4, .f32⟩
  | 55 => ⟨S2x4096x16, .f32⟩
  | 56 => ⟨S2x4096x4x4, .f32⟩
  | 57 => ⟨S2x4096x4x4, .f32⟩
  | 58 => ⟨S2x4096x4x4, .f32⟩
  | 59 => ⟨S16, .f32⟩
  | 60 => ⟨S4x4, .f32⟩
  | 61 => ⟨S1x1x4x4, .f32⟩
  | 62 => ⟨S2x4096x4x4, .f32⟩
  | 63 => ⟨S2x4096x4x4, .f32⟩
  | 64 => ⟨S_, .f32⟩
  | 65 => ⟨S2x4096x4, .f32⟩
  | 66 => ⟨S_, .f32⟩
  | 67 => ⟨S2x4096x4, .f32⟩
  | 68 => ⟨S2x4096x4, .f32⟩
  | 69 => ⟨S2x4096x4x1, .f32⟩
  | 70 => ⟨S2x4096x4x4, .f32⟩
  | 71 => ⟨S2x4096x4x4, .f32⟩
  | 72 => ⟨S2x4096x4x4, .f32⟩
  | 73 => ⟨S_, .f32⟩
  | 74 => ⟨S2x4096x4, .f32⟩
  | 75 => ⟨S2x4096x4x1, .f32⟩
  | 76 => ⟨S2x4096x4x4, .f32⟩
  | 77 => ⟨S2x4096x4x4, .f32⟩
  | 78 => ⟨S_, .f32⟩
  | 79 => ⟨S2x4096x4x4, .f32⟩
  | 80 => ⟨S2x4096x4x4, .f32⟩
  | 81 => ⟨S_, .f32⟩
  | 82 => ⟨S2x4096x4, .f32⟩
  | 83 => ⟨S2x4096x1x4, .f32⟩
  | 84 => ⟨S_, .f32⟩
  | 85 => ⟨S2x4096x1x4, .f32⟩
  | 86 => ⟨S2x4096x1x4, .f32⟩
  | 87 => ⟨S2x4096x4x4, .f32⟩
  | 88 => ⟨S2x4096x4x4, .f32⟩
  | 89 => ⟨S_, .f32⟩
  | 90 => ⟨S2x4096x4, .f32⟩
  | 91 => ⟨S2x4096x4x1, .f32⟩
  | 92 => ⟨S_, .f32⟩
  | 93 => ⟨S2x4096x4x1, .f32⟩
  | 94 => ⟨S2x4096x4x1, .f32⟩
  | 95 => ⟨S2x4096x4x4, .f32⟩
  | 96 => ⟨S2x4096x4x4, .f32⟩
  | 97 => ⟨S_, .f32⟩
  | 98 => ⟨S2x4096x4, .f32⟩
  | 99 => ⟨S2x4096x1x4, .f32⟩
  | 100 => ⟨S_, .f32⟩
  | 101 => ⟨S2x4096x1x4, .f32⟩
  | 102 => ⟨S2x4096x1x4, .f32⟩
  | 103 => ⟨S2x4096x4x4, .f32⟩
  | 104 => ⟨S2x4096x4x4, .f32⟩
  | 105 => ⟨S_, .f32⟩
  | 106 => ⟨S2x4096x4, .f32⟩
  | 107 => ⟨S2x4096x4x1, .f32⟩
  | 108 => ⟨S_, .f32⟩
  | 109 => ⟨S2x4096x4x1, .f32⟩
  | 110 => ⟨S2x4096x4x1, .f32⟩
  | 111 => ⟨S2x4096x4x4, .f32⟩
  | 112 => ⟨S2x4096x4x4, .f32⟩
  | 113 => ⟨S_, .f32⟩
  | 114 => ⟨S2x4096x4, .f32⟩
  | 115 => ⟨S2x4096x1x4, .f32⟩
  | 116 => ⟨S_, .f32⟩
  | 117 => ⟨S2x4096x1x4, .f32⟩
  | 118 => ⟨S2x4096x1x4, .f32⟩
  | 119 => ⟨S2x4096x4x4, .f32⟩
  | 120 => ⟨S2x4096x4x4, .f32⟩
  | 121 => ⟨S_, .f32⟩
  | 122 => ⟨S2x4096x4, .f32⟩
  | 123 => ⟨S2x4096x4x1, .f32⟩
  | 124 => ⟨S_, .f32⟩
  | 125 => ⟨S2x4096x4x1, .f32⟩
  | 126 => ⟨S2x4096x4x1, .f32⟩
  | 127 => ⟨S2x4096x4x4, .f32⟩
  | _ => ⟨S2x4096x4x4096, .f32⟩

abbrev hbmTy0_1 (i : Nat) : BufTy := match i % 128 with
  | 0 => ⟨S2x4096x4x4, .f32⟩
  | 1 => ⟨S_, .f32⟩
  | 2 => ⟨S2x4096x4, .f32⟩
  | 3 => ⟨S2x4096x1x4, .f32⟩
  | 4 => ⟨S_, .f32⟩
  | 5 => ⟨S2x4096x1x4, .f32⟩
  | 6 => ⟨S2x4096x1x4, .f32⟩
  | 7 => ⟨S2x4096x4x4, .f32⟩
  | 8 => ⟨S2x4096x4x4, .f32⟩
  | 9 => ⟨S_, .f32⟩
  | 10 => ⟨S2x4096x4, .f32⟩
  | 11 => ⟨S2x4096x4x1, .f32⟩
  | 12 => ⟨S_, .f32⟩
  | 13 => ⟨S2x4096x4x1, .f32⟩
  | 14 => ⟨S2x4096x4x1, .f32⟩
  | 15 => ⟨S2x4096x4x4, .f32⟩
  | 16 => ⟨S2x4096x4x4, .f32⟩
  | 17 => ⟨S_, .f32⟩
  | 18 => ⟨S2x4096x4, .f32⟩
  | 19 => ⟨S2x4096x1x4, .f32⟩
  | 20 => ⟨S_, .f32⟩
  | 21 => ⟨S2x4096x1x4, .f32⟩
  | 22 => ⟨S2x4096x1x4, .f32⟩
  | 23 => ⟨S2x4096x4x4, .f32⟩
  | 24 => ⟨S2x4096x4x4, .f32⟩
  | _ => ⟨S2x4096x4x4096, .f32⟩

abbrev hbmTy (i : Nat) : BufTy := match i / 128 with
  | 0 => hbmTy0_0 i
  | 1 => hbmTy0_1 i
  | _ => ⟨S2x4096x4x4096, .f32⟩

abbrev bufTy : (tb : Table) → Fin (tcTables nBuf tb) → BufTy
  | .hbm, ⟨i, _⟩ => hbmTy i
  | .local _ .vmem, ⟨0, _⟩ => ⟨S128x16384, .f32⟩
  | .local _ .vmem, ⟨1, _⟩ => ⟨S128x16384, .f32⟩
  | .local _ .vmem, ⟨2, _⟩ => ⟨S16384x128, .bf16⟩
  | .local _ .vmem, ⟨3, _⟩ => ⟨S128x128, .f32⟩
  | .local _ .vmem, ⟨4, _⟩ => ⟨S128x128, .f32⟩
  | _, _ => ⟨S2x4096x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_11 : Ref sig .tc := ⟨.hbm, 89, rfl⟩
abbrev main_v71 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_cst_20 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_cst_22 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_23 : Ref sig .tc := ⟨.hbm, 137, rfl⟩
abbrev main_v107 : Ref sig .tc := ⟨.hbm, 138, rfl⟩
abbrev main_v108 : Ref sig .tc := ⟨.hbm, 139, rfl⟩
abbrev main_cst_24 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_25 : Ref sig .tc := ⟨.hbm, 145, rfl⟩
abbrev main_v113 : Ref sig .tc := ⟨.hbm, 146, rfl⟩
abbrev main_v114 : Ref sig .tc := ⟨.hbm, 147, rfl⟩
abbrev main_cst_26 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x4096x4x4096_S8192x16384 : S2x4096x4x4096.ShapeCasts S8192x16384
  bitsLt_bf16_f32 : FTy.bits .bf16 < FTy.bits .f32
  transposes_S24x16384_S16384x24_1_0 : S24x16384.Transposes [1, 0] S16384x24
  pads_S16384x24_S16384x128_000_01040 : S16384x24.Pads (![0, 0] : Fin 2 → Nat) ![0, 104] ![0, 0] S16384x128
  h_S_ : 0 < S_.numel
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  reduces_S128x16384_S128 : S128x16384.Reduces [1] S128
  shapeCasts_S128_S128x1 : S128.ShapeCasts S128x1
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  broadcasts_S128x1_S128x128 : S128x1.Broadcasts S128x128
  inb_S128x128_S128x128_0_0 : ∀ a, (![0, 0] : Fin 2 → Nat) a + S128x128.size a ≤ S128x128.size a
  h_S128x128 : 0 < S128x128.numel
  slices_S8192x128_S8192x24_0_0 : S8192x128.Slices ![0, 0] S8192x24
  shapeCasts_S8192x24_S2x4096x24 : S8192x24.ShapeCasts S2x4096x24
  slices_S3_S1_0 : S3.Slices ![0] S1
  shapeCasts_S1_S_ : S1.ShapeCasts S_
  slices_S3_S1_1 : S3.Slices ![1] S1
  slices_S3_S1_2 : S3.Slices ![2] S1
  slices_S2x4096x24_S2x4096x4_0_0_0 : S2x4096x24.Slices ![0, 0, 0] S2x4096x4
  bcast_S_S2x4096x4 : S_.BroadcastsInDim S2x4096x4 (![] : Fin 0 → Fin S2x4096x4.rank)
  slices_S24_S4_0 : S24.Slices ![0] S4
  bcast_S4_S1x1x4_2 : S4.BroadcastsInDim S1x1x4 (![2] : Fin 1 → Fin S1x1x4.rank)
  bcast_S1x1x4_S2x4096x4_0_1_2 : S1x1x4.BroadcastsInDim S2x4096x4 (![0, 1, 2] : Fin 3 → Fin S2x4096x4.rank)
  slices_S2x4096x24_S2x4096x4_0_0_4 : S2x4096x24.Slices ![0, 0, 4] S2x4096x4
  slices_S24_S4_4 : S24.Slices ![4] S4
  slices_S2x4096x24_S2x4096x16_0_0_8 : S2x4096x24.Slices ![0, 0, 8] S2x4096x16
  shapeCasts_S2x4096x16_S2x4096x4x4 : S2x4096x16.ShapeCasts S2x4096x4x4
  bcast_S_S2x4096x4x4 : S_.BroadcastsInDim S2x4096x4x4 (![] : Fin 0 → Fin S2x4096x4x4.rank)
  slices_S24_S16_8 : S24.Slices ![8] S16
  shapeCasts_S16_S4x4 : S16.ShapeCasts S4x4
  bcast_S4x4_S1x1x4x4_2_3 : S4x4.BroadcastsInDim S1x1x4x4 (![2, 3] : Fin 2 → Fin S1x1x4x4.rank)
  bcast_S1x1x4x4_S2x4096x4x4_0_1_2_3 : S1x1x4x4.BroadcastsInDim S2x4096x4x4 (![0, 1, 2, 3] : Fin 4 → Fin S2x4096x4x4.rank)
  reducesTo_S2x4096x4x4_S2x4096x4_d3 : S2x4096x4x4.ReducesTo [3] S2x4096x4
  bcast_S2x4096x4_S2x4096x4x1_0_1_2 : S2x4096x4.BroadcastsInDim S2x4096x4x1 (![0, 1, 2] : Fin 3 → Fin S2x4096x4x1.rank)
  bcast_S2x4096x4x1_S2x4096x4x4_0_1_2_3 : S2x4096x4x1.BroadcastsInDim S2x4096x4x4 (![0, 1, 2, 3] : Fin 4 → Fin S2x4096x4x4.rank)
  reducesTo_S2x4096x4x4_S2x4096x4_d2 : S2x4096x4x4.ReducesTo [2] S2x4096x4
  bcast_S2x4096x4_S2x4096x1x4_0_1_3 : S2x4096x4.BroadcastsInDim S2x4096x1x4 (![0, 1, 3] : Fin 3 → Fin S2x4096x1x4.rank)
  bcast_S_S2x4096x1x4 : S_.BroadcastsInDim S2x4096x1x4 (![] : Fin 0 → Fin S2x4096x1x4.rank)
  bcast_S2x4096x1x4_S2x4096x4x4_0_1_2_3 : S2x4096x1x4.BroadcastsInDim S2x4096x4x4 (![0, 1, 2, 3] : Fin 4 → Fin S2x4096x4x4.rank)
  bcast_S_S2x4096x4x1 : S_.BroadcastsInDim S2x4096x4x1 (![] : Fin 0 → Fin S2x4096x4x1.rank)
  dot_S128x16384_S16384x128_S128x128_1_0_0_1_n_n_wf : DotDims.WF S128x16384 S16384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S8192x16384.size a
  hwx0_0 : ∀ i : grid0.Coords, EltTy.bits .f32 = 32 ∨ (Rect.block (s := S8192x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)

variable [Facts₀]

def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf

abbrev win0_0 : Pipeline.Window sig grid0 :=
  Pipeline.Window.ofSpec (Memref.whole main_v0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4096x4x4096 : Shape := ⟨4, ![2, 4096, 4, 4096]⟩
abbrev S24x16384 : Shape := ⟨2, ![24, 16384]⟩
abbrev S24 : Shape := ⟨1, ![24]⟩
abbrev S3 : Shape := ⟨1, ![3]⟩
abbrev S2x4096x16384 : Shape := ⟨3, ![2, 4096, 16384]⟩
abbrev S_ : Shape := ⟨0, ![]⟩
abbrev S2x4096 : Shape := ⟨2, ![2, 4096]⟩
abbrev S2x4096x1 : Shape := ⟨3, ![2, 4096, 1]⟩
abbrev S2x4096x24 : Shape := ⟨3, ![2, 4096, 24]⟩
abbrev S1 : Shape := ⟨1, ![1]⟩
abbrev S2x4096x4 : Shape := ⟨3, ![2, 4096, 4]⟩
abbrev S4 : Shape := ⟨1, ![4]⟩
abbrev S1x1x4 : Shape := ⟨3, ![1, 1, 4]⟩
abbrev S2x4096x16 : Shape := ⟨3, ![2, 4096, 16]⟩
abbrev S2x4096x4x4 : Shape := ⟨4, ![2, 4096, 4, 4]⟩
abbrev S16 : Shape := ⟨1, ![16]⟩
abbrev S4x4 : Shape := ⟨2, ![4, 4]⟩
abbrev S1x1x4x4 : Shape := ⟨4, ![1, 1, 4, 4]⟩
abbrev S2x4096x4x1 : Shape := ⟨4, ![2, 4096, 4, 1]⟩
abbrev S2x4096x1x4 : Shape := ⟨4, ![2, 4096, 1, 4]⟩

abbrev nBuf : Space → Nat
  | .hbm => 159
  | .vmem => 0
  | .smem => 0
  | _ => 0

abbrev hbmTy0_0 (i : Nat) : BufTy := match i % 128 with
  | 0 => ⟨S2x4096x4x4096, .f32⟩
  | 1 => ⟨S24x16384, .f32⟩
  | 2 => ⟨S24, .f32⟩
  | 3 => ⟨S3, .f32⟩
  | 4 => ⟨S2x4096x16384, .f32⟩
  | 5 => ⟨S2x4096x16384, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x24, .f32⟩
  | 17 => ⟨S2x4096x24, .f32⟩
  | 18 => ⟨S2x4096x24, .f32⟩
  | 19 => ⟨S1, .f32⟩
  | 20 => ⟨S_, .f32⟩
  | 21 => ⟨S1, .f32⟩
  | 22 => ⟨S_, .f32⟩
  | 23 => ⟨S1, .f32⟩
  | 24 => ⟨S_, .f32⟩
  | 25 => ⟨S2x4096x4, .f32⟩
  | 26 => ⟨S2x4096x4, .f32⟩
  | 27 => ⟨S2x4096x4, .f32⟩
  | 28 => ⟨S4, .f32⟩
  | 29 => ⟨S1x1x4, .f32⟩
  | 30 => ⟨S2x4096x4, .f32⟩
  | 31 => ⟨S2x4096x4, .f32⟩
  | 32 => ⟨S2x4096x4, .f32⟩
  | 33 => ⟨S2x4096x4, .f32⟩
  | 34 => ⟨S_, .f32⟩
  | 35 => ⟨S2x4096x4, .f32⟩
  | 36 => ⟨S2x4096x4, .f32⟩
  | 37 => ⟨S_, .f32⟩
  | 38 => ⟨S2x4096x4, .f32⟩
  | 39 => ⟨S2x4096x4, .f32⟩
  | 40 => ⟨S_, .f32⟩
  | 41 => ⟨S2x4096x4, .f32⟩
  | 42 => ⟨S2x4096x4, .f32⟩
  | 43 => ⟨S2x4096x4, .f32⟩
  | 44 => ⟨S2x4096x4, .f32⟩
  | 45 => ⟨S2x4096x4, .f32⟩
  | 46 => ⟨S4, .f32⟩
  | 47 => ⟨S1x1x4, .f32⟩
  | 48 => ⟨S2x4096x4, .f32⟩
  | 49 => ⟨S2x4096x4, .f32⟩
  | 50 => ⟨S2x4096x4, .f32⟩
  | 51 => ⟨S2x4096x4, .f32⟩
  | 52 => ⟨S_, .f32⟩
  | 53 => ⟨S2x4096x4, .f32⟩
  | 54 => ⟨S2x4096x4, .f32⟩
  | 55 => ⟨S_, .f32⟩
  | 56 => ⟨S2x4096x4, .f32⟩
  | 57 => ⟨S2x4096x4, .f32⟩
  | 58 => ⟨S_, .f32⟩
  | 59 => ⟨S2x4096x4, .f32⟩
  | 60 => ⟨S2x4096x4, .f32⟩
  | 61 => ⟨S2x4096x16, .f32⟩
  | 62 => ⟨S2x4096x4x4, .f32⟩
  | 63 => ⟨S2x4096x4x4, .f32⟩
  | 64 => ⟨S2x4096x4x4, .f32⟩
  | 65 => ⟨S16, .f32⟩
  | 66 => ⟨S4x4, .f32⟩
  | 67 => ⟨S1x1x4x4, .f32⟩
  | 68 => ⟨S2x4096x4x4, .f32⟩
  | 69 => ⟨S2x4096x4x4, .f32⟩
  | 70 => ⟨S_, .f32⟩
  | 71 => ⟨S2x4096x4, .f32⟩
  | 72 => ⟨S_, .f32⟩
  | 73 => ⟨S2x4096x4, .f32⟩
  | 74 => ⟨S2x4096x4, .f32⟩
  | 75 => ⟨S2x4096x4x1, .f32⟩
  | 76 => ⟨S2x4096x4x4, .f32⟩
  | 77 => ⟨S2x4096x4x4, .f32⟩
  | 78 => ⟨S2x4096x4x4, .f32⟩
  | 79 => ⟨S_, .f32⟩
  | 80 => ⟨S2x4096x4, .f32⟩
  | 81 => ⟨S2x4096x4x1, .f32⟩
  | 82 => ⟨S2x4096x4x4, .f32⟩
  | 83 => ⟨S2x4096x4x4, .f32⟩
  | 84 => ⟨S_, .f32⟩
  | 85 => ⟨S2x4096x4x4, .f32⟩
  | 86 => ⟨S2x4096x4x4, .f32⟩
  | 87 => ⟨S_, .f32⟩
  | 88 => ⟨S2x4096x4, .f32⟩
  | 89 => ⟨S2x4096x1x4, .f32⟩
  | 90 => ⟨S_, .f32⟩
  | 91 => ⟨S2x4096x1x4, .f32⟩
  | 92 => ⟨S2x4096x1x4, .f32⟩
  | 93 => ⟨S2x4096x4x4, .f32⟩
  | 94 => ⟨S2x4096x4x4, .f32⟩
  | 95 => ⟨S_, .f32⟩
  | 96 => ⟨S2x4096x4, .f32⟩
  | 97 => ⟨S2x4096x4x1, .f32⟩
  | 98 => ⟨S_, .f32⟩
  | 99 => ⟨S2x4096x4x1, .f32⟩
  | 100 => ⟨S2x4096x4x1, .f32⟩
  | 101 => ⟨S2x4096x4x4, .f32⟩
  | 102 => ⟨S2x4096x4x4, .f32⟩
  | 103 => ⟨S_, .f32⟩
  | 104 => ⟨S2x4096x4, .f32⟩
  | 105 => ⟨S2x4096x1x4, .f32⟩
  | 106 => ⟨S_, .f32⟩
  | 107 => ⟨S2x4096x1x4, .f32⟩
  | 108 => ⟨S2x4096x1x4, .f32⟩
  | 109 => ⟨S2x4096x4x4, .f32⟩
  | 110 => ⟨S2x4096x4x4, .f32⟩
  | 111 => ⟨S_, .f32⟩
  | 112 => ⟨S2x4096x4, .f32⟩
  | 113 => ⟨S2x4096x4x1, .f32⟩
  | 114 => ⟨S_, .f32⟩
  | 115 => ⟨S2x4096x4x1, .f32⟩
  | 116 => ⟨S2x4096x4x1, .f32⟩
  | 117 => ⟨S2x4096x4x4, .f32⟩
  | 118 => ⟨S2x4096x4x4, .f32⟩
  | 119 => ⟨S_, .f32⟩
  | 120 => ⟨S2x4096x4, .f32⟩
  | 121 => ⟨S2x4096x1x4, .f32⟩
  | 122 => ⟨S_, .f32⟩
  | 123 => ⟨S2x4096x1x4, .f32⟩
  | 124 => ⟨S2x4096x1x4, .f32⟩
  | 125 => ⟨S2x4096x4x4, .f32⟩
  | 126 => ⟨S2x4096x4x4, .f32⟩
  | 127 => ⟨S_, .f32⟩
  | _ => ⟨S2x4096x4x4096, .f32⟩

abbrev hbmTy0_1 (i : Nat) : BufTy := match i % 128 with
  | 0 => ⟨S2x4096x4, .f32⟩
  | 1 => ⟨S2x4096x4x1, .f32⟩
  | 2 => ⟨S_, .f32⟩
  | 3 => ⟨S2x4096x4x1, .f32⟩
  | 4 => ⟨S2x4096x4x1, .f32⟩
  | 5 => ⟨S2x4096x4x4, .f32⟩
  | 6 => ⟨S2x4096x4x4, .f32⟩
  | 7 => ⟨S_, .f32⟩
  | 8 => ⟨S2x4096x4, .f32⟩
  | 9 => ⟨S2x4096x1x4, .f32⟩
  | 10 => ⟨S_, .f32⟩
  | 11 => ⟨S2x4096x1x4, .f32⟩
  | 12 => ⟨S2x4096x1x4, .f32⟩
  | 13 => ⟨S2x4096x4x4, .f32⟩
  | 14 => ⟨S2x4096x4x4, .f32⟩
  | 15 => ⟨S_, .f32⟩
  | 16 => ⟨S2x4096x4, .f32⟩
  | 17 => ⟨S2x4096x4x1, .f32⟩
  | 18 => ⟨S_, .f32⟩
  | 19 => ⟨S2x4096x4x1, .f32⟩
  | 20 => ⟨S2x4096x4x1, .f32⟩
  | 21 => ⟨S2x4096x4x4, .f32⟩
  | 22 => ⟨S2x4096x4x4, .f32⟩
  | 23 => ⟨S_, .f32⟩
  | 24 => ⟨S2x4096x4, .f32⟩
  | 25 => ⟨S2x4096x1x4, .f32⟩
  | 26 => ⟨S_, .f32⟩
  | 27 => ⟨S2x4096x1x4, .f32⟩
  | 28 => ⟨S2x4096x1x4, .f32⟩
  | 29 => ⟨S2x4096x4x4, .f32⟩
  | 30 => ⟨S2x4096x4x4, .f32⟩
  | _ => ⟨S2x4096x4x4096, .f32⟩

abbrev hbmTy (i : Nat) : BufTy := match i / 128 with
  | 0 => hbmTy0_0 i
  | 1 => hbmTy0_1 i
  | _ => ⟨S2x4096x4x4096, .f32⟩

abbrev bufTy : (tb : Table) → Fin (tcTables nBuf tb) → BufTy
  | .hbm, ⟨i, _⟩ => hbmTy i
  | _, _ => ⟨S2x4096x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_cst_15 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_cst_17 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_18 : Ref sig .tc := ⟨.hbm, 111, rfl⟩
abbrev main_v88 : Ref sig .tc := ⟨.hbm, 112, rfl⟩
abbrev main_v89 : Ref sig .tc := ⟨.hbm, 113, rfl⟩
abbrev main_cst_19 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_20 : Ref sig .tc := ⟨.hbm, 119, rfl⟩
abbrev main_v94 : Ref sig .tc := ⟨.hbm, 120, rfl⟩
abbrev main_v95 : Ref sig .tc := ⟨.hbm, 121, rfl⟩
abbrev main_cst_21 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_cst_23 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_24 : Ref sig .tc := ⟨.hbm, 135, rfl⟩
abbrev main_v106 : Ref sig .tc := ⟨.hbm, 136, rfl⟩
abbrev main_v107 : Ref sig .tc := ⟨.hbm, 137, rfl⟩
abbrev main_cst_25 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_26 : Ref sig .tc := ⟨.hbm, 143, rfl⟩
abbrev main_v112 : Ref sig .tc := ⟨.hbm, 144, rfl⟩
abbrev main_v113 : Ref sig .tc := ⟨.hbm, 145, rfl⟩
abbrev main_cst_27 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_28 : Ref sig .tc := ⟨.hbm, 151, rfl⟩
abbrev main_v118 : Ref sig .tc := ⟨.hbm, 152, rfl⟩
abbrev main_v119 : Ref sig .tc := ⟨.hbm, 153, rfl⟩
abbrev main_cst_29 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]

class Facts₀ : Prop where
  shapeCasts_S2x4096x4x4096_S2x4096x16384 : S2x4096x4x4096.ShapeCasts S2x4096x16384
  reducesTo_S2x4096x16384_S2x4096_d2 : S2x4096x16384.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x24_0_1_2 : S2x4096x1.BroadcastsInDim S2x4096x24 (![0, 1, 2] : Fin 3 → Fin S2x4096x24.rank)
  slices_S3_S1_0 : S3.Slices ![0] S1
  shapeCasts_S1_S_ : S1.ShapeCasts S_
  slices_S3_S1_1 : S3.Slices ![1] S1
  slices_S3_S1_2 : S3.Slices ![2] S1
  slices_S2x4096x24_S2x4096x4_0_0_0 : S2x4096x24.Slices ![0, 0, 0] S2x4096x4
  bcast_S_S2x4096x4 : S_.BroadcastsInDim S2x4096x4 (![] : Fin 0 → Fin S2x4096x4.rank)
  slices_S24_S4_0 : S24.Slices ![0] S4
  bcast_S4_S1x1x4_2 : S4.BroadcastsInDim S1x1x4 (![2] : Fin 1 → Fin S1x1x4.rank)
  bcast_S1x1x4_S2x4096x4_0_1_2 : S1x1x4.BroadcastsInDim S2x4096x4 (![0, 1, 2] : Fin 3 → Fin S2x4096x4.rank)
  slices_S2x4096x24_S2x4096x4_0_0_4 : S2x4096x24.Slices ![0, 0, 4] S2x4096x4
  slices_S24_S4_4 : S24.Slices ![4] S4
  slices_S2x4096x24_S2x4096x16_0_0_8 : S2x4096x24.Slices ![0, 0, 8] S2x4096x16
  shapeCasts_S2x4096x16_S2x4096x4x4 : S2x4096x16.ShapeCasts S2x4096x4x4
  bcast_S_S2x4096x4x4 : S_.BroadcastsInDim S2x4096x4x4 (![] : Fin 0 → Fin S2x4096x4x4.rank)
  slices_S24_S16_8 : S24.Slices ![8] S16
  shapeCasts_S16_S4x4 : S16.ShapeCasts S4x4
  bcast_S4x4_S1x1x4x4_2_3 : S4x4.BroadcastsInDim S1x1x4x4 (![2, 3] : Fin 2 → Fin S1x1x4x4.rank)
  bcast_S1x1x4x4_S2x4096x4x4_0_1_2_3 : S1x1x4x4.BroadcastsInDim S2x4096x4x4 (![0, 1, 2, 3] : Fin 4 → Fin S2x4096x4x4.rank)
  reducesTo_S2x4096x4x4_S2x4096x4_d3 : S2x4096x4x4.ReducesTo [3] S2x4096x4
  bcast_S2x4096x4_S2x4096x4x1_0_1_2 : S2x4096x4.BroadcastsInDim S2x4096x4x1 (![0, 1, 2] : Fin 3 → Fin S2x4096x4x1.rank)
  bcast_S2x4096x4x1_S2x4096x4x4_0_1_2_3 : S2x4096x4x1.BroadcastsInDim S2x4096x4x4 (![0, 1, 2, 3] : Fin 4 → Fin S2x4096x4x4.rank)
  reducesTo_S2x4096x4x4_S2x4096x4_d2 : S2x4096x4x4.ReducesTo [2] S2x4096x4
  bcast_S2x4096x4_S2x4096x1x4_0_1_3 : S2x4096x4.BroadcastsInDim S2x4096x1x4 (![0, 1, 3] : Fin 3 → Fin S2x4096x1x4.rank)
  bcast_S_S2x4096x1x4 : S_.BroadcastsInDim S2x4096x1x4 (![] : Fin 0 → Fin S2x4096x1x4.rank)
  bcast_S2x4096x1x4_S2x4096x4x4_0_1_2_3 : S2x4096x1x4.BroadcastsInDim S2x4096x4x4 (![0, 1, 2, 3] : Fin 4 → Fin S2x4096x4x4.rank)
  bcast_S_S2x4096x4x1 : S_.BroadcastsInDim S2x4096x4x1 (![] : Fin 0 → Fin S2x4096x4x1.rank)
  dot_S2x4096x16384_S24x16384_S2x4096x24_2_1_01_0_n_n_wf : DotDims.WF S2x4096x16384 S24x16384 S2x4096x24 [2] [1] [0, 1] [0] [] []

variable [Facts₀]

def dot_S2x4096x16384_S24x16384_S2x4096x24_2_1_01_0_n_n : DotDims S2x4096x16384 S24x16384 S2x4096x24 where
  lhsContracting := [2]
  rhsContracting := [1]
  lhsNonContracting := [0, 1]
  rhsNonContracting := [0]
  lhsBatch := []
  rhsBatch := []
  wf := dot_S2x4096x16384_S24x16384_S2x4096x24_2_1_01_0_n_n_wf

class Facts : Prop extends Facts₀ where

variable [Facts]
-- ==== Proof.FrameBits.lean ====
import proofs.«134641_j18425409700454_2_alg».proof.Proof.Gen.Kernel.Launch
import proofs.«134641_j18425409700454_2_alg».proof.Proof.Gen.Kernel.Skeleton
import proofs.«134641_j18425409700454_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The frame of the program around its one region, at any float model `F`.

  @main is: four host operations, the two operations of the padding call, the region, and 142 host operations.
  The region runs a grid of 64 points over three windows: the rows of the first operand, 128 at a time (a new
  block at every point), the whole second operand (brought in once, at the first point), and the result,
  128 rows at a time (written back at every point).  At a point the body reads the two input buffers whole,
  reads the result buffer (a value it never uses) and overwrites the result buffer whole with one payload of
  the two values read.  So after the body the input buffers hold their blocks, and the result buffer holds
  that payload of the two blocks.  The four argument arrays are the result of no operation and no window
  stages them, hence they end as launched. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s TensorCore buffers hold when the region is entered: the launch contents carried through the
    six host operations that precede it. -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  repeat' constructor

set_option maxRecDepth 200000 in
set_option maxHeartbeats 40000000 in
/-- @main is the two host stretches, the region, and the later stretch; so it reduces to the region continued by
    the later stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The later operations touch unscoped TensorCore references only: the windows' arrays and buffers that bypass
    the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 40000000 in
/-- And none of them has a window's array as its result. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  fin_cases w <;> exact List.forall_iff_forall_mem.mp (by
    simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation before the region has `main_arg0` as its result, so the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region has `main_arg1` as its result, so the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region has `main_arg2` as its result, so the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region has `main_arg3` as its result, so the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No operation after the region has `main_arg0` as its result, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 40000000 in
/-- No operation after the region has `main_arg1` as its result, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 40000000 in
/-- No operation after the region has `main_arg2` as its result, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 40000000 in
/-- No operation after the region has `main_arg3` as its result, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second operand's buffer holds its block at every point although it is fetched at the first only: where it
    is not fetched its block index has not moved and the body has left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run that ends with every buffer no window stages at what the later operations leave there, read at the
    four argument arrays: each ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses -/

/-- The whole of each buffer, as the rectangle the body reads or writes. -/
abbrev r0 : Rect S128x16384 := Rect.unit (s := S128x16384) ![0, 0] S128x16384.size inb_S128x16384_S128x16384_0_0
abbrev r1 : Rect S16384x128 := Rect.unit (s := S16384x128) ![0, 0] S16384x128.size inb_S16384x128_S16384x128_0_0
abbrev r2 : Rect S128x128 := Rect.unit (s := S128x128) ![0, 0] S128x128.size inb_S128x128_S128x128_0_0

/-- What the body leaves in the result buffer, from the two input blocks: its one store, whose payload is computed
    from the two whole-buffer reads. -/
def out2 (x0 : Vec F S128x16384 .f32) (x1 : Vec F S16384x128 .bf16) : Vec F S128x128 .f32 :=
  View.canon [⟨r2, k0_pay1 (View.ld x0 r0) (View.ld x1 r1)⟩]

/-- The one store covers the result buffer. -/
theorem cover2 (p0 : Vec F S128x128 .f32) (y : S128x128.Idx) :
    ∃ pc ∈ ([⟨r2, p0⟩] : List (View.Piece (Elt F) S128x128 .f32)), y ∈ pc.1.set :=
  View.cover_of_tiled [⟨r2, p0⟩] S128x128.size (by rfl) y

/-! ## The body's triple -/

set_option maxHeartbeats 4000000 in
/-- The body on three whole buffers, the inputs' at `x0` and `x1` and the result's at anything: it ends with the
    inputs' as they were and the result's at `out2 x0 x1`.  The read of the result buffer changes nothing and its
    value is dropped. -/
theorem sound_kernel (c : Dev nD) (E : Set ℕ) (i : grid0.Coords)
    (arg1 : Memref sig .tc .vmem S128x16384 .f32) (harg1 : arg1.IsWhole)
    (arg2 : Memref sig .tc .vmem S16384x128 .bf16) (harg2 : arg2.IsWhole)
    (arg3 : Memref sig .tc .vmem S128x128 .f32) (harg3 : arg3.IsWhole)
    (x0 : Vec F S128x16384 .f32) (x1 : Vec F S16384x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__mix_kernel i arg1 harg1 arg2 harg2 arg3 harg3) K := by
  simp only [cc0__mix_kernel_eq_skeleton]; unfold cc0__mix_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data on core `c`: the arrays as the region finds them; after the body at point `t` each input buffer at
    its block and the result buffer at `out2` of the two blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option maxHeartbeats 40000000 in
set_option backward.isDefEq.respectTransparency.types false in
/-- From any memory with zero counters, every weakly fair execution of @main on the TensorCores terminates, and at
    the end every array of the pipeline holds what the proof data computes and every other unscoped buffer what
    the later operations leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.FrameIdeal.lean ====
import proofs.«134641_j18425409700454_2_alg».proof.Proof.Gen.KernelIdeal.Launch
import proofs.«134641_j18425409700454_2_alg».proof.Proof.Gen.KernelIdeal.Skeleton
import proofs.«134641_j18425409700454_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The frame of the program around its one region, at any float model `F`.

  @main is: four host operations, the two operations of the padding call, the region, and 142 host operations.
  The region runs a grid of 64 points over three windows: the rows of the first operand, 128 at a time (a new
  block at every point), the whole second operand (brought in once, at the first point), and the result,
  128 rows at a time (written back at every point).  At a point the body reads the two input buffers whole,
  reads the result buffer (a value it never uses) and overwrites the result buffer whole with one payload of
  the two values read.  So after the body the input buffers hold their blocks, and the result buffer holds
  that payload of the two blocks.  The four argument arrays are the result of no operation and no window
  stages them, hence they end as launched. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s TensorCore buffers hold when the region is entered: the launch contents carried through the
    six host operations that precede it. -/
abbrev V0 (c : Dev nD) : Valuation τ sig (Elt F) := StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  repeat' constructor

set_option maxRecDepth 200000 in
set_option maxHeartbeats 40000000 in
/-- @main is the two host stretches, the region, and the later stretch; so it reduces to the region continued by
    the later stretch, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The later operations touch unscoped TensorCore references only: the windows' arrays and buffers that bypass
    the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 40000000 in
/-- And none of them has a window's array as its result. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  revert op
  fin_cases w <;> exact List.forall_iff_forall_mem.mp (by
    simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation before the region has `main_arg0` as its result, so the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region has `main_arg1` as its result, so the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region has `main_arg2` as its result, so the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region has `main_arg3` as its result, so the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No operation after the region has `main_arg0` as its result, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 40000000 in
/-- No operation after the region has `main_arg1` as its result, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 40000000 in
/-- No operation after the region has `main_arg2` as its result, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 40000000 in
/-- No operation after the region has `main_arg3` as its result, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (by
      rw [List.flatten_cons, List.flatten_nil, List.append_nil]
      exact List.forall_iff_forall_mem.mp (by
        simp only [hostOps1, List.Forall, StableHlo.TRef.nullary, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first operand's buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second operand's buffer holds its block at every point although it is fetched at the first only: where it
    is not fetched its block index has not moved and the body has left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- From a run that ends with every buffer no window stages at what the later operations leave there, read at the
    four argument arrays: each ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses -/

/-- The whole of each buffer, as the rectangle the body reads or writes. -/
abbrev r0 : Rect S128x16384 := Rect.unit (s := S128x16384) ![0, 0] S128x16384.size inb_S128x16384_S128x16384_0_0
abbrev r1 : Rect S16384x128 := Rect.unit (s := S16384x128) ![0, 0] S16384x128.size inb_S16384x128_S16384x128_0_0
abbrev r2 : Rect S128x128 := Rect.unit (s := S128x128) ![0, 0] S128x128.size inb_S128x128_S128x128_0_0

/-- What the body leaves in the result buffer, from the two input blocks: its one store, whose payload is computed
    from the two whole-buffer reads. -/
def out2 (x0 : Vec F S128x16384 .f32) (x1 : Vec F S16384x128 .bf16) : Vec F S128x128 .f32 :=
  View.canon [⟨r2, k0_pay1 (View.ld x0 r0) (View.ld x1 r1)⟩]

/-- The one store covers the result buffer. -/
theorem cover2 (p0 : Vec F S128x128 .f32) (y : S128x128.Idx) :
    ∃ pc ∈ ([⟨r2, p0⟩] : List (View.Piece (Elt F) S128x128 .f32)), y ∈ pc.1.set :=
  View.cover_of_tiled [⟨r2, p0⟩] S128x128.size (by rfl) y

/-! ## The body's triple -/

set_option maxHeartbeats 4000000 in
/-- The body on three whole buffers, the inputs' at `x0` and `x1` and the result's at anything: it ends with the
    inputs' as they were and the result's at `out2 x0 x1`.  The read of the result buffer changes nothing and its
    value is dropped. -/
theorem sound_kernel (c : Dev nD) (E : Set ℕ) (i : grid0.Coords)
    (arg1 : Memref sig .tc .vmem S128x16384 .f32) (harg1 : arg1.IsWhole)
    (arg2 : Memref sig .tc .vmem S16384x128 .bf16) (harg2 : arg2.IsWhole)
    (arg3 : Memref sig .tc .vmem S128x128 .f32) (harg3 : arg3.IsWhole)
    (x0 : Vec F S128x16384 .f32) (x1 : Vec F S16384x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__mix_kernel i arg1 harg1 arg2 harg2 arg3 harg3) K := by
  simp only [cc0__mix_kernel_eq_skeleton]; unfold cc0__mix_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data on core `c`: the arrays as the region finds them; after the body at point `t` each input buffer at
    its block and the result buffer at `out2` of the two blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option maxHeartbeats 40000000 in
set_option backward.isDefEq.respectTransparency.types false in
/-- From any memory with zero counters, every weakly fair execution of @main on the TensorCores terminates, and at
    the end every array of the pipeline holds what the proof data computes and every other unscoped buffer what
    the later operations leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program terminates without fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.Payload.lean ====
/-
  What the kernel body stores, entry by entry, over the extended reals.  The body takes a block of 128 hidden rows
  (128 × 16384) and the padded weights (16384 × 128) and stores, at (p, q),

      (∑ₖ x p k · w k q) · rsqrt ((∑ₖ (x p k)²) / 16384 + ε):

  the matrix unit's product into a zero accumulator is the plain sum of products, the lane reduction is the plain
  sum of squares, the change of float format is the identity, and the column of reciprocal root mean squares is
  laid across the 128 output columns.
-/
import proofs.«134641_j18425409700454_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The block product at an entry: the sum over the 16384 contracted positions of the products of the entries
    (the accumulator is zero). -/
theorem dot_apply (l : FVec Ideal S128x16384 .bf16) (r : FVec Ideal S16384x128 .bf16) (p q : Fin 128) :
    matmul dot_S128x16384_S16384x128_S128x128_1_0_0_1_n_n none l r (constant (F := Ideal) S128x128 .f32 0x00000000#32) (ix2 p q)
      = ∑ k : Fin 16384, l (ix2 p k) * r (ix2 k q) := by
  show FloatOps.matmul _ none l r (constant (F := Ideal) S128x128 .f32 0x00000000#32) (ix2 p q) = _
  rw [Ideal.matmul_constant_zero_apply,
    ← Equiv.sum_comp (contrEquiv1 dot_S128x16384_S16384x128_S128x128_1_0_0_1_n_n 16384 rfl rfl).symm]
  refine Finset.sum_congr rfl fun k _ => ?_
  have ck := contrEquiv1_symm_val dot_S128x16384_S16384x128_S128x128_1_0_0_1_n_n 16384 rfl rfl k
  have hl : dot_S128x16384_S16384x128_S128x128_1_0_0_1_n_n.lhsIdx (ix2 p q)
      ((contrEquiv1 _ 16384 rfl rfl).symm k) = ix2 p k := by
    funext ax; apply Fin.ext
    match ax with
    | ⟨0, _⟩ => simp [DotDims.lhsIdx, dot_S128x16384_S16384x128_S128x128_1_0_0_1_n_n]; rfl
    | ⟨1, _⟩ => simp [DotDims.lhsIdx, dot_S128x16384_S16384x128_S128x128_1_0_0_1_n_n]; exact ck
  have hr : dot_S128x16384_S16384x128_S128x128_1_0_0_1_n_n.rhsIdx (ix2 p q)
      ((contrEquiv1 _ 16384 rfl rfl).symm k) = ix2 k q := by
    funext ax; apply Fin.ext
    match ax with
    | ⟨0, _⟩ => simp [DotDims.rhsIdx, dot_S128x16384_S16384x128_S128x128_1_0_0_1_n_n]; exact ck
    | ⟨1, _⟩ => simp [DotDims.rhsIdx, dot_S128x16384_S16384x128_S128x128_1_0_0_1_n_n]; rfl
  rw [hl, hr]

/-- A vector of length `a` cast to a column [a, 1] reads, at (i, 0), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] laid across b columns reads, at (i, j), the column at (i, 0). -/
theorem broadcastTo_a1_ab_apply {α : Type} {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (by
    intro ax
    match ax with
    | ⟨0, _⟩ =>
      by_cases ha : a = 1
      · subst ha; simp <;> omega
      · simp [ha]
    | ⟨1, _⟩ => simp)

/-- One entry of what the body stores: row `p` of the hidden block projected on column `q` of the weight block,
    times the reciprocal root mean square of row `p`. -/
theorem mul_column_apply (A : FVec Ideal S128x128 .f32) (v : FVec Ideal S128x1 .f32) (p q : Fin 128) :
    mulf A (broadcastTo S128x128 v broadcasts_S128x1_S128x128) (ix2 p q) = A (ix2 p q) * v (ix2 p (0 : Fin 1)) := by
  rw [mulf_apply, broadcastTo_a1_ab_apply]

/-- The reciprocal root mean square of row `p` of the hidden block, as the body computes it. -/
theorem rrms_apply (x0 : Vec Ideal S128x16384 .f32) (hφ) (hacc) (p : Fin 128) :
    (rsqrt (addf (divf (shapeCast S128x1 (multiReduction .add [1] S128 (mulf x0 x0) 0x00000000#32 reduces_S128x16384_S128 hφ hacc) shapeCasts_S128_S128x1)
        (broadcast S128x1 (FloatOps.ofBits (F := Ideal) .f32 0x46800000#32))) (broadcast S128x1 (FloatOps.ofBits (F := Ideal) .f32 0x358637BD#32))) : FVec Ideal S128x1 .f32) (ix2 p (0 : Fin 1))
      = Ideal.rsqrt (Ideal.div (∑ k : Fin 16384, x0 (ix2 p k) * x0 (ix2 p k)) (Ideal.ofBits .f32 0x46800000#32) + Ideal.ofBits .f32 0x358637BD#32) := by
  show Ideal.rsqrt (Ideal.div (shapeCast S128x1 _ shapeCasts_S128_S128x1 (ix2 p (0 : Fin 1))) (Ideal.ofBits .f32 0x46800000#32) + Ideal.ofBits .f32 0x358637BD#32) = _
  rw [shapeCast_a_a1_apply, Ideal.multiReduction_add_single]
  refine congrArg (fun s => Ideal.rsqrt (Ideal.div s (Ideal.ofBits .f32 0x46800000#32) + Ideal.ofBits .f32 0x358637BD#32)) ?_
  refine Finset.sum_congr rfl fun k _ => ?_
  have hk : reduces_S128x16384_S128.lift (ix1 p) k = ix2 p k := by
    funext a; apply Fin.ext
    match a with
    | ⟨0, _⟩ => rfl
    | ⟨1, _⟩ => rfl
  show x0 (reduces_S128x16384_S128.lift (ix1 p) k) * x0 (reduces_S128x16384_S128.lift (ix1 p) k) = _
  rw [hk]
  rfl

/-- One entry of what the body stores: row `p` of the hidden block projected on column `q` of the weight block,
    times the reciprocal root mean square of row `p`. -/
theorem pay_apply (x0 : Vec Ideal S128x16384 .f32) (x1 : Vec Ideal S16384x128 .bf16) (p q : Fin 128) :
    k0_pay1 x0 x1 (ix2 p q) = (∑ k : Fin 16384, x0 (ix2 p k) * x1 (ix2 k q))
      * Ideal.rsqrt (Ideal.div (∑ k : Fin 16384, x0 (ix2 p k) * x0 (ix2 p k)) (Ideal.ofBits .f32 0x46800000#32) + Ideal.ofBits .f32 0x358637BD#32) := by
  unfold k0_pay1
  simp only [shapeCast_self]
  refine (mul_column_apply _ _ p q).trans ?_
  exact congrArg₂ (· * ·) (dot_apply _ _ p q) (rrms_apply x0 _ _ p)

end Cert.KernelIdeal.Payload

end
-- ==== Proof.MixSpec.lean ====
/-
  The gate logits ("mix") both programs compute, as one function of the hidden streams and the projection
  weights.  The hidden streams [2, 4096, 4, 4096] are read as 8192 rows of 16384 entries (row r = 4096·b + s,
  entry k = 4096·h + j).  Row r's logit n is

      (∑ₖ x r k · w n k) · rsqrt ((∑ₖ (x r k)²) / 16384 + ε)

  over the extended reals: the projection of the row on weight row n, scaled by the reciprocal root mean
  square of the row.  The two float literals (16384 and ε) are kept as their binary words.
-/
import Idealize.ShloMosaic.PureOps.Ideal
import Idealize.ShloMosaic.Lib.ValueIdx

noncomputable section

namespace Cert.MixSpec

open Idealize.ShloMosaic Idealize.ShloMosaic.ValueIdx
open scoped BigOperators

/-- The hidden streams' shape and the weights' shape. -/
abbrev SHid : Shape := ⟨4, ![2, 4096, 4, 4096]⟩
abbrev SWt : Shape := ⟨2, ![24, 16384]⟩

/-- Entry `k` of flattened row `r` of the hidden streams. -/
def hrow (x : SHid.Idx → EReal) (r : Fin 8192) (k : Fin 16384) : EReal :=
  x (ix4 (⟨r.val / 4096, by have := r.isLt; omega⟩ : Fin 2) (⟨r.val % 4096, Nat.mod_lt _ (by decide)⟩ : Fin 4096)
        (⟨k.val / 4096, by have := k.isLt; omega⟩ : Fin 4) (⟨k.val % 4096, Nat.mod_lt _ (by decide)⟩ : Fin 4096))

/-- The row's sum of squares. -/
def ssq (x : SHid.Idx → EReal) (r : Fin 8192) : EReal := ∑ k : Fin 16384, hrow x r k * hrow x r k

/-- The row's projection on weight row `n`. -/
def proj (x : SHid.Idx → EReal) (w : SWt.Idx → EReal) (r : Fin 8192) (n : Fin 24) : EReal :=
  ∑ k : Fin 16384, hrow x r k * w (ix2 n k)

/-- The reciprocal root mean square of the row (the mean over 16384 entries, plus ε). -/
def rrms (x : SHid.Idx → EReal) (r : Fin 8192) : EReal :=
  Ideal.rsqrt (Ideal.div (ssq x r) (Ideal.ofBits .f32 0x46800000#32) + Ideal.ofBits .f32 0x358637BD#32)

/-- Gate logit `n` of row `r`. -/
def mix (x : SHid.Idx → EReal) (w : SWt.Idx → EReal) (r : Fin 8192) (n : Fin 24) : EReal :=
  proj x w r n * rrms x r

end Cert.MixSpec

end
-- ==== Proof.Tail.lean ====
/-
  What both programs do with the gate logits once they have them: the three results as functions of the
  logits `mix` [2, 4096, 24], the biases `base` [24] and the three scales `scale` [3].

    pre  = σ(mix[.., 0:4]  · scale₀ + base[0:4])  + δ
    post = 2 · σ(mix[.., 4:8] · scale₁ + base[4:8])
    comb = Sinkhorn(softmax(mix[.., 8:24] as 4×4 · scale₂ + base[8:24] as 4×4) + δ)

  with σ(z) = 1 / (1 + exp(−z)), the softmax along the last axis (shifted by the row maximum), and the
  Sinkhorn normalization dividing by (column sums + δ) once and then four times by (row sums + δ) and
  (column sums + δ) in turn.  The operations and their order are the host lines' own, so that either
  program's result is this term of its own logits by unfolding.
-/
import proofs.«134641_j18425409700454_2_alg».proof.Proof.Gen.ReferenceIdeal

noncomputable section

namespace Cert.Tail

open Cert.ReferenceIdeal Cert.ReferenceIdeal.Gen Idealize.ShloMosaic Idealize.ShloMosaic.TcCoe

variable {F : FTy → Type} [FloatOps F]

/-- A scalar constant laid over [2, 4096, 4]. -/
abbrev k3 (w : BitVec 32) : (⟨S2x4096x4, .f32⟩ : BufTy).Contents (Elt F) :=
  broadcastInDim S2x4096x4 ![] bcast_S_S2x4096x4 (constant S_ .f32 w)

/-- The logistic gate of four logits per position: 1 / (1 + exp (−(z · s + b))), `s` a scalar, `b` four biases. -/
def gate (z : (⟨S2x4096x4, .f32⟩ : BufTy).Contents (Elt F)) (s : (⟨S_, .f32⟩ : BufTy).Contents (Elt F))
    (b : (⟨S4, .f32⟩ : BufTy).Contents (Elt F)) : (⟨S2x4096x4, .f32⟩ : BufTy).Contents (Elt F) :=
  Host.divf (k3 0x3F800000#32) (addf (k3 0x3F800000#32) (Host.exp (Host.negf (addf
    (mulf z (broadcastInDim S2x4096x4 ![] bcast_S_S2x4096x4 s))
    (broadcastInDim S2x4096x4 ![0, 1, 2] bcast_S1x1x4_S2x4096x4_0_1_2 (broadcastInDim S1x1x4 ![2] bcast_S4_S1x1x4_2 b))))))

/-- The first result: the gate of logits 0..3, plus δ. -/
def pre (mix : (⟨S2x4096x24, .f32⟩ : BufTy).Contents (Elt F)) (base : (⟨S24, .f32⟩ : BufTy).Contents (Elt F))
    (scale : (⟨S3, .f32⟩ : BufTy).Contents (Elt F)) : (⟨S2x4096x4, .f32⟩ : BufTy).Contents (Elt F) :=
  addf (gate (extractStridedSlice S2x4096x4 ![0, 0, 0] mix slices_S2x4096x24_S2x4096x4_0_0_0)
      (shapeCast _ (extractStridedSlice S1 ![0] scale slices_S3_S1_0) shapeCasts_S1_S_)
      (extractStridedSlice S4 ![0] base slices_S24_S4_0))
    (k3 0x3727C5AC#32)

/-- The second result: twice the gate of logits 4..7. -/
def post (mix : (⟨S2x4096x24, .f32⟩ : BufTy).Contents (Elt F)) (base : (⟨S24, .f32⟩ : BufTy).Contents (Elt F))
    (scale : (⟨S3, .f32⟩ : BufTy).Contents (Elt F)) : (⟨S2x4096x4, .f32⟩ : BufTy).Contents (Elt F) :=
  mulf (k3 0x40000000#32)
    (gate (extractStridedSlice S2x4096x4 ![0, 0, 4] mix slices_S2x4096x24_S2x4096x4_0_0_4)
      (shapeCast _ (extractStridedSlice S1 ![1] scale slices_S3_S1_1) shapeCasts_S1_S_)
      (extractStridedSlice S4 ![4] base slices_S24_S4_4))

/-- The 4×4 logits per position: logits 8..23 as a matrix, times the third scale, plus biases 8..23 as a matrix. -/
def logits (mix : (⟨S2x4096x24, .f32⟩ : BufTy).Contents (Elt F)) (base : (⟨S24, .f32⟩ : BufTy).Contents (Elt F))
    (scale : (⟨S3, .f32⟩ : BufTy).Contents (Elt F)) : (⟨S2x4096x4x4, .f32⟩ : BufTy).Contents (Elt F) :=
  addf (mulf (shapeCast _ (extractStridedSlice S2x4096x16 ![0, 0, 8] mix slices_S2x4096x24_S2x4096x16_0_0_8) shapeCasts_S2x4096x16_S2x4096x4x4)
      (broadcastInDim S2x4096x4x4 ![] bcast_S_S2x4096x4x4 (shapeCast _ (extractStridedSlice S1 ![2] scale slices_S3_S1_2) shapeCasts_S1_S_)))
    (broadcastInDim S2x4096x4x4 ![0, 1, 2, 3] bcast_S1x1x4x4_S2x4096x4x4_0_1_2_3 (broadcastInDim S1x1x4x4 ![2, 3] bcast_S4x4_S1x1x4x4_2_3
      (shapeCast _ (extractStridedSlice S16 ![8] base slices_S24_S16_8) shapeCasts_S16_S4x4)))

/-- A value per row of each 4×4 matrix, laid along the row. -/
abbrev alongRow (v : (⟨S2x4096x4, .f32⟩ : BufTy).Contents (Elt F)) : (⟨S2x4096x4x4, .f32⟩ : BufTy).Contents (Elt F) :=
  broadcastInDim S2x4096x4x4 ![0, 1, 2, 3] bcast_S2x4096x4x1_S2x4096x4x4_0_1_2_3 (broadcastInDim S2x4096x4x1 ![0, 1, 2] bcast_S2x4096x4_S2x4096x4x1_0_1_2 v)

/-- exp of each entry less its row's maximum (the maximum taken from −∞). -/
def shiftedExp (x : (⟨S2x4096x4x4, .f32⟩ : BufTy).Contents (Elt F)) : (⟨S2x4096x4x4, .f32⟩ : BufTy).Contents (Elt F) :=
  Host.exp (subf x (alongRow (maximumf (k3 0xFF800000#32)
    (Host.reduce FloatOps.maximumf x (constant S_ .f32 0xFF800000#32) reducesTo_S2x4096x4x4_S2x4096x4_d3 h_S_))))

/-- Each entry over its row's sum, plus δ: with `shiftedExp`, the softmax along the last axis plus δ. -/
def rowShare (e : (⟨S2x4096x4x4, .f32⟩ : BufTy).Contents (Elt F)) : (⟨S2x4096x4x4, .f32⟩ : BufTy).Contents (Elt F) :=
  addf (Host.divf e (alongRow (Host.reduceAdd e (constant S_ .f32 0x00000000#32) reducesTo_S2x4096x4x4_S2x4096x4_d3 h_S_)))
    (broadcastInDim S2x4096x4x4 ![] bcast_S_S2x4096x4x4 (constant S_ .f32 0x3727C5AC#32))

/-- Each entry over (its column's sum + δ). -/
def colNorm (x : (⟨S2x4096x4x4, .f32⟩ : BufTy).Contents (Elt F)) : (⟨S2x4096x4x4, .f32⟩ : BufTy).Contents (Elt F) :=
  Host.divf x (broadcastInDim S2x4096x4x4 ![0, 1, 2, 3] bcast_S2x4096x1x4_S2x4096x4x4_0_1_2_3 (addf
    (broadcastInDim S2x4096x1x4 ![0, 1, 3] bcast_S2x4096x4_S2x4096x1x4_0_1_3 (Host.reduceAdd x (constant S_ .f32 0x00000000#32) reducesTo_S2x4096x4x4_S2x4096x4_d2 h_S_))
    (broadcastInDim S2x4096x1x4 ![] bcast_S_S2x4096x1x4 (constant S_ .f32 0x3727C5AC#32))))

/-- Each entry over (its row's sum + δ). -/
def rowNorm (x : (⟨S2x4096x4x4, .f32⟩ : BufTy).Contents (Elt F)) : (⟨S2x4096x4x4, .f32⟩ : BufTy).Contents (Elt F) :=
  Host.divf x (broadcastInDim S2x4096x4x4 ![0, 1, 2, 3] bcast_S2x4096x4x1_S2x4096x4x4_0_1_2_3 (addf
    (broadcastInDim S2x4096x4x1 ![0, 1, 2] bcast_S2x4096x4_S2x4096x4x1_0_1_2 (Host.reduceAdd x (constant S_ .f32 0x00000000#32) reducesTo_S2x4096x4x4_S2x4096x4_d3 h_S_))
    (broadcastInDim S2x4096x4x1 ![] bcast_S_S2x4096x4x1 (constant S_ .f32 0x3727C5AC#32))))

/-- The third result: the softmax of the 4×4 logits plus δ, normalized by columns, then four times by rows and by columns. -/
def comb (mix : (⟨S2x4096x24, .f32⟩ : BufTy).Contents (Elt F)) (base : (⟨S24, .f32⟩ : BufTy).Contents (Elt F))
    (scale : (⟨S3, .f32⟩ : BufTy).Contents (Elt F)) : (⟨S2x4096x4x4, .f32⟩ : BufTy).Contents (Elt F) :=
  colNorm (rowNorm (colNorm (rowNorm (colNorm (rowNorm (colNorm (rowNorm (colNorm
    (rowShare (shiftedExp (logits mix base scale)))))))))))

end Cert.Tail

end
-- ==== Proof.KTail.lean ====
/-
  The kernel program's host lines after the region, read back: from ANY contents of the buffers, the three
  results are the common functions (`Cert.Tail`) of the kernel's logits — columns 0..23 of the region's
  [8192, 128] result, its rows regrouped as [2, 4096] — and of the biases and scales.
-/
import proofs.«134641_j18425409700454_2_alg».proof.Proof.Gen.KernelIdeal.Launch
import proofs.«134641_j18425409700454_2_alg».proof.Proof.Tail
import Idealize.ShloMosaic.Lib.StableHlo.Run

noncomputable section

namespace Cert.KernelIdeal.KTail

open Cert.KernelIdeal Cert.KernelIdeal.Gen Idealize.ShloMosaic Idealize.ShloMosaic.TcCoe Idealize.SL.Sem Idealize.ShloMosaic.StableHlo

variable {F : FTy → Type} [FloatOps F]

/-- The kernel's logits from the region's padded result: the first 24 of its 128 columns, row r = 4096·b + s at (b, s). -/
def kmix (A : (⟨S8192x128, .f32⟩ : BufTy).Contents (Elt F)) : (⟨S2x4096x24, .f32⟩ : BufTy).Contents (Elt F) :=
  shapeCast _ (extractStridedSlice S8192x24 ![0, 0] A slices_S8192x128_S8192x24_0_0) shapeCasts_S8192x24_S2x4096x24

set_option maxRecDepth 8192 in
set_option maxHeartbeats 40000000 in
theorem tail_pre (W : Valuation τ sig (Elt F)) :
    after hostOps1 W (Proc.devRef .tc main_v27)
      = Cert.Tail.pre (kmix (W (Proc.devRef .tc main_v4))) (W (Proc.devRef .tc main_arg2)) (W (Proc.devRef .tc main_arg3)) := by
  after_results_simp
  rfl

set_option maxRecDepth 8192 in
set_option maxHeartbeats 40000000 in
theorem tail_post (W : Valuation τ sig (Elt F)) :
    after hostOps1 W (Proc.devRef .tc main_v42)
      = Cert.Tail.post (kmix (W (Proc.devRef .tc main_v4))) (W (Proc.devRef .tc main_arg2)) (W (Proc.devRef .tc main_arg3)) := by
  after_results_simp
  rfl

set_option maxRecDepth 8192 in
set_option maxHeartbeats 80000000 in
theorem tail_comb (W : Valuation τ sig (Elt F)) :
    after hostOps1 W (Proc.devRef .tc main_v118)
      = Cert.Tail.comb (kmix (W (Proc.devRef .tc main_v4))) (W (Proc.devRef .tc main_arg2)) (W (Proc.devRef .tc main_arg3)) := by
  after_results_simp
  rfl

end Cert.KernelIdeal.KTail

end
-- ==== Proof.KMix.lean ====
/-
  The region's result.  Point t of the grid takes rows 128t .. 128t+127 of the flattened hidden streams and the
  whole padded weight matrix, and writes rows 128t .. 128t+127 of the [8192, 128] result; what it writes is, entry
  by entry, the row's projection on a weight column times the row's reciprocal root mean square.  So every
  write-back is a block of ONE function `G` of the two staged arrays.
-/
import proofs.«134641_j18425409700454_2_alg».proof.Proof.FrameIdeal
import proofs.«134641_j18425409700454_2_alg».proof.Proof.Payload
import proofs.«134641_j18425409700454_2_alg».proof.Proof.MixSpec
import proofs.«134641_j18425409700454_2_alg».proof.Proof.KTail
import Idealize.ShloMosaic.Lib.Pipeline.Value
import Idealize.ShloMosaic.Lib.KernelVsHost
import Idealize.ShloMosaic.Lib.StableHlo.Run

noncomputable section

namespace Cert.KernelIdeal.KMix

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- One entry of the region's result, from the two arrays the region stages: row `r` of the flattened hidden
    streams projected on column `q` of the padded weights, times the row's reciprocal root mean square. -/
def entry (X : S8192x16384.Idx → EReal) (Wp : S16384x128.Idx → EReal) (r : Fin 8192) (q : Fin 128) : EReal :=
  (∑ k : Fin 16384, X (ix2 r k) * Wp (ix2 k q))
    * Ideal.rsqrt (Ideal.div (∑ k : Fin 16384, X (ix2 r k) * X (ix2 r k)) (Ideal.ofBits .f32 0x46800000#32) + Ideal.ofBits .f32 0x358637BD#32)

/-- The region's [8192, 128] result as one function of those arrays. -/
def G (X : S8192x16384.Idx → EReal) (Wp : S16384x128.Idx → EReal) : S8192x128.Idx → EReal :=
  fun i => entry X Wp (i 0) (i 1)

theorem hz : (![0, 0] : Fin 2 → Nat) = fun _ => 0 := funext fun a => by fin_cases a <;> rfl

/-- The printed index maps over the grid: point `t` takes hidden rows 128t .. 128t+127 and writes result rows
    128t .. 128t+127; the weights' one block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the hidden block at point `t` is row 128t + p of the staged array. -/
theorem blk0_apply (c : Dev nD) (t : Fin cfg0.N) (p : Fin 128) (k : Fin 16384) :
    (iblk m c 0 t : Vec Ideal S128x16384 .f32) (ix2 p k)
      = (V m c main_v0 : S8192x16384.Idx → EReal) (ix2 (⟨128 * t.val + p.val, by have := t.isLt; have hN : cfg0.N = 64 := N_0; omega⟩ : Fin 8192) k) := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t (0 : Fin 2) * 128 + 1 * p.val = 128 * t.val + p.val; omega
  | ⟨1, _⟩ => show win0_0.index t (1 : Fin 2) * 16384 + 1 * k.val = k.val; omega

/-- The weights' block at any point is the staged array. -/
theorem blk1_apply (c : Dev nD) (t : Fin cfg0.N) (k : Fin 16384) (q : Fin 128) :
    (iblk m c 1 t : Vec Ideal S16384x128 .bf16) (ix2 k q) = (V m c main_v3 : S16384x128.Idx → EReal) (ix2 k q) := by
  obtain ⟨-, -, e2, e3, -, -⟩ := idx_facts t
  unfold iblk
  rw [View.read_apply]
  show V m c main_v3 _ = V m c main_v3 _
  congr 1
  funext a
  apply Fin.ext
  match a with
  | ⟨0, _⟩ => show win0_1.index t (0 : Fin 2) * 16384 + 1 * k.val = k.val; omega
  | ⟨1, _⟩ => show win0_1.index t (1 : Fin 2) * 128 + 1 * q.val = q.val; omega

/-- What the body stores at point `t`, entry by entry. -/
theorem stored_apply (c : Dev nD) (t : Fin cfg0.N) (p q : Fin 128) :
    k0_pay1 (iblk m c 0 t) (iblk m c 1 t) (ix2 p q)
      = entry (V m c main_v0) (V m c main_v3) (⟨128 * t.val + p.val, by have := t.isLt; have hN : cfg0.N = 64 := N_0; omega⟩ : Fin 8192) q := by
  refine (Payload.pay_apply (iblk m c 0 t) (iblk m c 1 t) p q).trans ?_
  unfold entry
  simp only [blk0_apply m c t, blk1_apply m c t]

/-- WHAT POINT `t` WRITES BACK is block `t` of `G`. -/
theorem flushed_eq (c : Dev nD) (t : Fin cfg0.N) :
    (dats m 0 c).flushed 2 t = ((cfg0.win 2).blk t).view.read (Elt Ideal) (G (V m c main_v0) (V m c main_v3)) := by
  show (cfg0.win 2).cut (grid0.coords t) ((dats m 0 c).after 2 t) = _
  rw [after0_2]
  unfold out2
  rw [View.canon_unit_zero hz]
  simp only [View.ld_unit_zero (S := S128x16384) hz, View.ld_unit_zero (S := S16384x128) hz]
  have key : ∀ jj : S128x128.Idx, k0_pay1 (iblk m c 0 t) (iblk m c 1 t) jj
      = G (V m c main_v0) (V m c main_v3) (((cfg0.win 2).blk t).view.emb jj) := by
    intro jj
    obtain ⟨p, q, rfl⟩ : ∃ (p q : Fin 128), jj = ix2 p q := ⟨jj 0, jj 1, eq_ix2 jj⟩
    refine (stored_apply m c t p q).trans ?_
    unfold G
    obtain ⟨-, -, -, -, e4, e5⟩ := idx_facts t
    congr 1
    · apply Fin.ext
      show 128 * t.val + p.val = win0_2.index t (0 : Fin 2) * 128 + 1 * p.val
      omega
    · apply Fin.ext
      show q.val = win0_2.index t (1 : Fin 2) * 128 + 1 * q.val
      omega
  funext j
  exact key j

end Cert.KernelIdeal.KMix

end
-- ==== Proof.KCover.lean ====
import proofs.«134641_j18425409700454_2_alg».proof.Proof.FrameIdeal
import Idealize.ShloMosaic.Lib.Pipeline.Value

/-! The result window's blocks tile the result array.

  The result array has 8192 rows of 128 columns; the window's block at grid point `t` is the 128 rows from
  `128 * t` on, all columns, and it is written back at every one of the 64 points.  Row `r` therefore lies in
  the block of point `r / 128`, so every index of the array is in the block of a point that writes back. -/

noncomputable section

namespace Cert.KernelIdeal.KCover

open Cert.KernelIdeal Cert.KernelIdeal.Gen Cert.KernelIdeal.Frame
open Idealize.ShloMosaic Idealize.ShloMosaic.TcCoe Idealize.SL.Sem
open Idealize.ShloMosaic.Pipeline (Dat)

/-- An index of the result array is in point `t`'s block iff each coordinate is in the block's range on its axis. -/
theorem mem_blk (t : Fin cfg0.N) (i : S8192x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v4).slice (win0_2.rect t)).set ↔ _
  rw [View.set_slice_whole, Rect.mem_set_unit]
  exact Iff.rfl

/-- The block index of point `t`: `t` along the rows, `0` along the columns (decided over the 64 points). -/
theorem idx_facts : ∀ t : Fin grid0.N, win0_2.index t (0 : Fin 2) = t.val ∧ win0_2.index t (1 : Fin 2) = 0 := by
  decide +kernel

/-- Every index of the result array lies in the block of a point that writes back: row `r` in that of `r / 128`. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : grid0.N = 64 := N_0
  have hlt : (i 0).val / 128 < grid0.N := by rw [hN]; omega
  refine ⟨⟨(i 0).val / 128, hlt⟩, flush0_2 _, ?_⟩
  rw [mem_blk]
  obtain ⟨e0, e1⟩ := idx_facts ⟨(i 0).val / 128, hlt⟩
  have v0 : (⟨(i 0).val / 128, hlt⟩ : Fin grid0.N).val = (i 0).val / 128 := rfl
  intro a
  match a with
  | ⟨0, _⟩ =>
    show win0_2.index ⟨(i 0).val / 128, hlt⟩ (0 : Fin 2) * 128 ≤ (i 0).val ∧ (i 0).val < win0_2.index ⟨(i 0).val / 128, hlt⟩ (0 : Fin 2) * 128 + 128
    rw [e0, v0]; omega
  | ⟨1, _⟩ =>
    show win0_2.index ⟨(i 0).val / 128, hlt⟩ (1 : Fin 2) * 128 ≤ (i 1).val ∧ (i 1).val < win0_2.index ⟨(i 0).val / 128, hlt⟩ (1 : Fin 2) * 128 + 128
    rw [e1]; omega

end Cert.KernelIdeal.KCover

end
-- ==== Proof.KValue.lean ====
/-
  The kernel program's run, read: the three results as the common functions (`Cert.Tail`) of the kernel's logits
  — the region's result `KMix.G` of the two staged arrays, its first 24 columns regrouped — and of the biases and
  scales, the four arguments unchanged.
-/
import proofs.«134641_j18425409700454_2_alg».proof.Proof.FrameIdeal
import proofs.«134641_j18425409700454_2_alg».proof.Proof.KMix
import proofs.«134641_j18425409700454_2_alg».proof.Proof.KTail
import proofs.«134641_j18425409700454_2_alg».proof.Proof.KCover
import Idealize.ShloMosaic.Lib.Pipeline.Value
import Idealize.ShloMosaic.Lib.Pipeline.FrameSuffix

noncomputable section

namespace Cert.KernelIdeal.KValue

open Cert.KernelIdeal Cert.KernelIdeal.Gen Cert.KernelIdeal.Frame Cert.KernelIdeal.KMix Cert.KernelIdeal.KTail
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffers' contents when the host lines after the region start: the pipeline's arrays as the region leaves
    them, every other buffer as the region found it. -/
abbrev W (c : Dev nD) : Valuation τ sig (Elt Ideal) :=
  Pipeline.withArrays (cfgs 0).spec c (V0 m c) fun w => (dats m 0 c).arrAt w (cfgs 0).N

/-- THE REGION'S RESULT after the run: the 64 write-backs are blocks of `G` and tile the array, so it holds `G`. -/
theorem final (c : Dev nD) : (dats m 0 c).arrAt 2 cfg0.N = G (V m c main_v0) (V m c main_v3) :=
  (dats m 0 c).arrAt_eq_of_cover 2 (G (V m c main_v0) (V m c main_v3)) (fun t _ => flushed_eq m c t) Cert.KernelIdeal.KCover.cover

theorem W_v4 (c : Dev nD) : W m c (Proc.devRef .tc main_v4) = G (V m c main_v0) (V m c main_v3) :=
  (Pipeline.withArrays_arr spec0 launch0.win.arr_inj c _ _ 2).trans (final m c)

theorem W_arg2 (c : Dev nD) : W m c (Proc.devRef .tc main_arg2) = m ((c : Thread nD τ).loc main_arg2) :=
  (Pipeline.withArrays_of_ne _ c (V0 m c) _ main_arg2 (by decide : ∀ w, Pipeline.arrRef spec0 w ≠ main_arg2)).trans (V_main_arg2 m c)

theorem W_arg3 (c : Dev nD) : W m c (Proc.devRef .tc main_arg3) = m ((c : Thread nD τ).loc main_arg3) :=
  (Pipeline.withArrays_of_ne _ c (V0 m c) _ main_arg3 (by decide : ∀ w, Pipeline.arrRef spec0 w ≠ main_arg3)).trans (V_main_arg3 m c)

/-- The kernel's logits. -/
abbrev logitsOf (c : Dev nD) := kmix (F := Ideal) (G (V m c main_v0) (V m c main_v3))

theorem tail_v27 (c : Dev nD) : Pipeline.afterTail₀ cfgs (dats m) 0 (V0 m) [hostOps1] c main_v27
    = Cert.Tail.pre (logitsOf m c) (m ((c : Thread nD τ).loc main_arg2)) (m ((c : Thread nD τ).loc main_arg3)) := by
  unfold Pipeline.afterTail₀
  simp only [List.flatten_cons, List.flatten_nil, List.append_nil]
  show StableHlo.after hostOps1 (W m c) (Proc.devRef .tc main_v27) = _
  rw [tail_pre, W_v4, W_arg2, W_arg3]

theorem tail_v42 (c : Dev nD) : Pipeline.afterTail₀ cfgs (dats m) 0 (V0 m) [hostOps1] c main_v42
    = Cert.Tail.post (logitsOf m c) (m ((c : Thread nD τ).loc main_arg2)) (m ((c : Thread nD τ).loc main_arg3)) := by
  unfold Pipeline.afterTail₀
  simp only [List.flatten_cons, List.flatten_nil, List.append_nil]
  show StableHlo.after hostOps1 (W m c) (Proc.devRef .tc main_v42) = _
  rw [tail_post, W_v4, W_arg2, W_arg3]

theorem tail_v118 (c : Dev nD) : Pipeline.afterTail₀ cfgs (dats m) 0 (V0 m) [hostOps1] c main_v118
    = Cert.Tail.comb (logitsOf m c) (m ((c : Thread nD τ).loc main_arg2)) (m ((c : Thread nD τ).loc main_arg3)) := by
  unfold Pipeline.afterTail₀
  simp only [List.flatten_cons, List.flatten_nil, List.append_nil]
  show StableHlo.after hostOps1 (W m c) (Proc.devRef .tc main_v118) = _
  rw [tail_comb, W_v4, W_arg2, W_arg3]

/-- Every weakly fair execution of the kernel program terminates with the three results at those terms and the
    arguments as launched. -/
theorem run : θ_run defs (onTc (τ := τ) (main (F := Ideal))) ⟨m, fun _ => 0, ρ⟩ fun r => ∀ c : Dev nD,
      r.2.mem ((c.tc : Thread nD τ).loc main_v27)
          = Cert.Tail.pre (logitsOf m c) (m ((c : Thread nD τ).loc main_arg2)) (m ((c : Thread nD τ).loc main_arg3))
      ∧ r.2.mem ((c.tc : Thread nD τ).loc main_v42)
          = Cert.Tail.post (logitsOf m c) (m ((c : Thread nD τ).loc main_arg2)) (m ((c : Thread nD τ).loc main_arg3))
      ∧ r.2.mem ((c.tc : Thread nD τ).loc main_v118)
          = Cert.Tail.comb (logitsOf m c) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v27 (Pipeline.mem_restRefs_of main_v27 (by decide) (by decide))).trans (tail_v27 m c),
     ((h c).2 main_v42 (Pipeline.mem_restRefs_of main_v42 (by decide) (by decide))).trans (tail_v42 m c),
     ((h c).2 main_v118 (Pipeline.mem_restRefs_of main_v118 (by decide) (by decide))).trans (tail_v118 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KValue

end
-- ==== Proof.KPrefix.lean ====
/-
  The kernel program's host lines before its region, and the slicing after it, read at one index.

  Before the region the program flattens the hidden streams [2, 4096, 4, 4096] to 8192 rows of 16384 entries, and
  narrows, transposes and pads the weights [24, 16384] to [16384, 128] (104 zero columns on the right).  After the
  region it keeps the first 24 of the result's 128 columns and regroups the 8192 rows as [2, 4096].  Over the
  extended reals: the flattened streams at (r, k) are entry k of row r; the prepared weights at (k, n), n < 24, are
  the weights at (n, k); the regrouped logits at (b, s, n) are the result at (4096·b + s, n).
-/
import proofs.«134641_j18425409700454_2_alg».proof.Proof.FrameIdeal
import proofs.«134641_j18425409700454_2_alg».proof.Proof.MixSpec
import proofs.«134641_j18425409700454_2_alg».proof.Proof.KTail
import Idealize.ShloMosaic.Lib.StableHlo.Run
import Idealize.ShloMosaic.Lib.KernelVsHost
import Idealize.ShloMosaic.Lib.Pipeline.Value

noncomputable section

namespace Cert.KernelIdeal.KPrefix

open Cert.KernelIdeal Cert.KernelIdeal.Gen Cert.KernelIdeal.Frame
open Idealize.ShloMosaic Idealize.ShloMosaic.ValueIdx Idealize.ShloMosaic.TcCoe Idealize.SL.Sem Idealize.ShloMosaic.StableHlo

variable (m : (ℓ : Loc nD τ sig) → Buf (Elt Ideal) ℓ)

set_option maxRecDepth 16384 in
/-- The flattened hidden streams the region reads, at `(r, k)`, are entry `k` of row `r`: the reshape keeps the
    row-major offset `r·16384 + k`. -/
theorem v0_apply (c : Dev nD) (r : Fin 8192) (k : Fin 16384) :
    (V m c main_v0 : S8192x16384.Idx → EReal) (ix2 r k)
      = Cert.MixSpec.hrow (m ((c : Thread nD τ).loc main_arg0)) r k := by
  have e : (V m c main_v0 : S8192x16384.Idx → EReal)
      = shapeCast _ (m ((c : Thread nD τ).loc main_arg0)) shapeCasts_S2x4096x4x4096_S8192x16384 := by
    dsimp only [V, V0]
    simp only [hostOps0, hostOps0_1, List.flatten_cons, List.flatten_nil, List.append_nil, List.cons_append,
      List.nil_append]
    after_results
    rfl
  rw [e]
  unfold Cert.MixSpec.hrow
  refine shapeCast_apply _ _ _ _ ?_
  show (Shape.rowMajor ⟨4, ![2, 4096, 4, 4096]⟩ _).val = (Shape.rowMajor ⟨2, ![8192, 16384]⟩ _).val
  rw [Shape.rowMajor_val_four, Shape.rowMajor_val_two]
  show (((r.val / 4096) * 4096 + r.val % 4096) * 4 + k.val / 4096) * 4096 + k.val % 4096 = r.val * 16384 + k.val
  have := r.isLt; have := k.isLt
  omega

set_option maxRecDepth 16384 in
/-- The padded, transposed, narrowed weights the region reads, at `(k, n)` with `n < 24`, are the weights at `(n, k)`:
    column `n` lies inside the operand of the padding (which adds 104 columns on the right), the transposition swaps
    the two coordinates, and narrowing does not change an extended real. -/
theorem v3_apply (c : Dev nD) (k : Fin 16384) (n : Fin 24) :
    (V m c main_v3 : S16384x128.Idx → EReal) (ix2 k (⟨n.val, by omega⟩ : Fin 128))
      = (m ((c : Thread nD τ).loc main_arg1) : S24x16384.Idx → EReal) (ix2 n k) := by
  have e : (V m c main_v3 : S16384x128.Idx → EReal)
      = pad S16384x128 ![0, 0] ![0, 104] ![0, 0]
          (transpose S16384x24 [1, 0]
            (truncf (F := Ideal) .bf16 (m ((c : Thread nD τ).loc main_arg1) : FVec Ideal S24x16384 .f32) bitsLt_bf16_f32)
            transposes_S24x16384_S16384x24_1_0)
          (sitofp (F := Ideal) .bf16 (constantI S_ 32 0#32)) pads_S16384x24_S16384x128_000_01040 h_S_ := by
    dsimp only [V, V0]
    simp only [hostOps0, hostOps0_1, List.flatten_cons, List.flatten_nil, List.append_nil, List.cons_append,
      List.nil_append]
    after_results
    rfl
  rw [e]
  refine (pad_apply_of_inside _ _ _ _ _ _ _ (ix2 k (⟨n.val, by omega⟩ : Fin 128)) (ix2 k n) ?_).trans ?_
  · intro a
    match a with
    | ⟨0, _⟩ => show k.val = 0 + k.val * (0 + 1); omega
    | ⟨1, _⟩ => show n.val = 0 + n.val * (0 + 1); omega
  refine (transpose_apply [1, 0] _ _ (ix2 k n) (ix2 n k) ?_).trans ?_
  · intro b
    match b with
    | ⟨0, _⟩ => rfl
    | ⟨1, _⟩ => rfl
  rfl

/-- The kernel's logits read at `(b, s, n)`: row `4096·b + s`, column `n` of the padded result (equal row-major
    offsets in the [8192, 24] slice; the slice starts at column 0). -/
theorem kmix_apply (A : S8192x128.Idx → EReal) (b : Fin 2) (s : Fin 4096) (n : Fin 24) :
    Cert.KernelIdeal.KTail.kmix (F := Ideal) A (ix3 b s n)
      = A (ix2 (⟨4096 * b.val + s.val, by omega⟩ : Fin 8192) (⟨n.val, by omega⟩ : Fin 128)) := by
  unfold Cert.KernelIdeal.KTail.kmix
  refine (shapeCast_apply _ _ (ix3 b s n) (ix2 (⟨4096 * b.val + s.val, by omega⟩ : Fin 8192) n) ?_).trans ?_
  · show (Shape.rowMajor ⟨2, ![8192, 24]⟩ _).val = (Shape.rowMajor ⟨3, ![2, 4096, 24]⟩ _).val
    rw [Shape.rowMajor_val_two, Shape.rowMajor_val_three]
    show (4096 * b.val + s.val) * 24 + n.val = (b.val * 4096 + s.val) * 24 + n.val
    omega
  · exact extractStridedSlice_apply _ _ _ _ _ fun a => match a with
      | ⟨0, _⟩ => by show 4096 * b.val + s.val = 0 + (4096 * b.val + s.val); omega
      | ⟨1, _⟩ => by show n.val = 0 + n.val; omega

end Cert.KernelIdeal.KPrefix

end
-- ==== Proof.RefTail.lean ====
/-
  The reference program's run with its three results stated as the common functions (`Cert.Tail`) of its own
  logits, biases and scales: the generated run's terms are those functions unfolded.
-/
import proofs.«134641_j18425409700454_2_alg».proof.Proof.Gen.ReferenceIdeal.Run
import proofs.«134641_j18425409700454_2_alg».proof.Proof.Tail

noncomputable section

namespace Cert.ReferenceIdeal.RefTail

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 8192 in
set_option maxHeartbeats 40000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = Cert.Tail.pre (res_main_v11 (launchContents m c)) (m ((c.tc : Thread nD τ).loc main_arg2)) (m ((c.tc : Thread nD τ).loc main_arg3))
      ∧ r.2.mem ((c.tc : Thread nD τ).loc main_v47)
          = Cert.Tail.post (res_main_v11 (launchContents m c)) (m ((c.tc : Thread nD τ).loc main_arg2)) (m ((c.tc : Thread nD τ).loc main_arg3))
      ∧ r.2.mem ((c.tc : Thread nD τ).loc main_v123)
          = Cert.Tail.comb (res_main_v11 (launchContents m c)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩)
    (Value.run (F := F) m ρ)

end Cert.ReferenceIdeal.RefTail

end
-- ==== Proof.RefMix.lean ====
/-
  The reference program's gate logits, read at one index.

  The reference reshapes the hidden streams [2, 4096, 4, 4096] to [2, 4096, 16384], sums the squares over the last
  axis, divides by 16384, adds ε, takes the reciprocal square root, contracts the reshaped streams with the weights
  [24, 16384] over the last axis of each, and scales the product by the reciprocal root spread along the 24 logits.
  Read at (b, s, n) over the extended reals that is the specification's logit n of row 4096·b + s:

      (∑ₖ x r k · w n k) · rsqrt ((∑ₖ (x r k)²) / 16384 + ε),   r = 4096·b + s.

  Four readings, then the assembly: the reshape at an index is an entry of the flattened row (equal row-major
  offsets); the one-axis sum from the zero word is the row's sum of squares; the contraction is the row's projection
  (its one contracted coordinate re-indexed by the 16384 entries); the broadcasts read the row's value.
-/
import proofs.«134641_j18425409700454_2_alg».proof.Proof.Gen.ReferenceIdeal.Run
import proofs.«134641_j18425409700454_2_alg».proof.Proof.MixSpec
import Idealize.ShloMosaic.Lib.IdealHost
import Idealize.ShloMosaic.Lib.Pipeline.Value

noncomputable section

namespace Cert.ReferenceIdeal.RefMix

open Cert.ReferenceIdeal Cert.ReferenceIdeal.Gen Cert.ReferenceIdeal.Value Idealize.ShloMosaic Idealize.ShloMosaic.ValueIdx
open Idealize.SL.Sem Idealize.ShloMosaic.StableHlo
open scoped BigOperators

/-- Row `4096·b + s` of the flattened hidden streams. -/
abbrev rowOf (b : Fin 2) (s : Fin 4096) : Fin 8192 :=
  ⟨4096 * b.val + s.val, by have := b.isLt; have := s.isLt; omega⟩

/-- The reshaped hidden streams at `(b, s, k)` are entry `k` of row `4096·b + s`: both positions are the same
    row-major offset `(4096·b + s)·16384 + k`. -/
theorem v0_apply (V0 : Valuation τ sig (Elt Ideal)) (b : Fin 2) (s : Fin 4096) (k : Fin 16384) :
    res_main_v0 (F := Ideal) V0 (ix3 b s k)
      = Cert.MixSpec.hrow (V0 (Proc.devRef .tc main_arg0)) (rowOf b s) k := by
  unfold res_main_v0 Cert.MixSpec.hrow
  refine shapeCast_apply _ _ _ _ ?_
  show (Shape.rowMajor ⟨4, ![2, 4096, 4, 4096]⟩ _).val = (Shape.rowMajor ⟨3, ![2, 4096, 16384]⟩ _).val
  rw [Shape.rowMajor_val_four, Shape.rowMajor_val_three]
  show ((((4096 * b.val + s.val) / 4096) * 4096 + (4096 * b.val + s.val) % 4096) * 4 + k.val / 4096) * 4096 + k.val % 4096
      = (b.val * 4096 + s.val) * 16384 + k.val
  have := b.isLt; have := s.isLt; have := k.isLt
  omega

/-- The sum over the last axis of the squared reshaped streams, at `(b, s)`, is the row's sum of squares: the
    reduction starts from the zero word, and the index it sums over is `(b, s, k)`. -/
theorem v2_apply (V0 : Valuation τ sig (Elt Ideal)) (b : Fin 2) (s : Fin 4096) :
    Host.reduceAdd (F := Ideal) (mulf (res_main_v0 (F := Ideal) V0) (res_main_v0 (F := Ideal) V0))
        (constant (F := Ideal) S_ .f32 0x00000000#32) reducesTo_S2x4096x16384_S2x4096_d2 h_S_ (ix2 b s)
      = Cert.MixSpec.ssq (V0 (Proc.devRef .tc main_arg0)) (rowOf b s) := by
  have hR : S2x4096x16384.Reduces [2] S2x4096 := by decide
  rw [hostReduceAdd_apply, Ideal.hostReduceAdd_single _ hR, constant_apply, Ideal.ofBits_zero_f32, zero_add]
  unfold Cert.MixSpec.ssq
  refine Finset.sum_congr rfl fun k _ => ?_
  have hk : hR.lift (ix2 b s) k = ix3 b s k := by
    funext a; apply Fin.ext
    match a with
    | ⟨0, _⟩ => rfl
    | ⟨1, _⟩ => rfl
    | ⟨2, _⟩ => rfl
  rw [mulf_apply, hk]
  exact congrArg₂ (· * ·) (v0_apply V0 b s k) (v0_apply V0 b s k)

set_option maxRecDepth 16384 in
/-- The contraction of the reshaped streams' last axis with the weights' last axis, at `(b, s, n)`, is the row's
    projection on weight row `n`: the one contracted coordinate runs over the 16384 entries. -/
theorem v9_apply (V0 : Valuation τ sig (Elt Ideal)) (b : Fin 2) (s : Fin 4096) (n : Fin 24) :
    Host.dotGeneral (F := Ideal) (φ₁ := .f32) (φ₂ := .f32) dot_S2x4096x16384_S24x16384_S2x4096x24_2_1_01_0_n_n none (res_main_v0 (F := Ideal) V0)
        (V0 (Proc.devRef .tc main_arg1)) (ix3 b s n)
      = Cert.MixSpec.proj (V0 (Proc.devRef .tc main_arg0)) (V0 (Proc.devRef .tc main_arg1)) (rowOf b s) n := by
  refine (Ideal.dotGeneral_apply (φ₁ := .f32) (φ₂ := .f32) dot_S2x4096x16384_S24x16384_S2x4096x24_2_1_01_0_n_n none .single
    (res_main_v0 (F := Ideal) V0) (V0 (Proc.devRef .tc main_arg1)) (ix3 b s n)).trans ?_
  rw [← Equiv.sum_comp (contrEquiv1 dot_S2x4096x16384_S24x16384_S2x4096x24_2_1_01_0_n_n 16384 rfl rfl).symm]
  unfold Cert.MixSpec.proj
  refine Finset.sum_congr rfl fun c _ => ?_
  have c3 := contrEquiv1_symm_val dot_S2x4096x16384_S24x16384_S2x4096x24_2_1_01_0_n_n 16384 rfl rfl c
  have l3 : (dot_S2x4096x16384_S24x16384_S2x4096x24_2_1_01_0_n_n).lhsIdx (ix3 b s n) ((contrEquiv1 _ 16384 rfl rfl).symm c) = ix3 b s c := by
    funext ax; apply Fin.ext
    match ax with
    | ⟨0, _⟩ => simp [DotDims.lhsIdx, dot_S2x4096x16384_S24x16384_S2x4096x24_2_1_01_0_n_n]; rfl
    | ⟨1, _⟩ => simp [DotDims.lhsIdx, dot_S2x4096x16384_S24x16384_S2x4096x24_2_1_01_0_n_n]; rfl
    | ⟨2, _⟩ => simp [DotDims.lhsIdx, dot_S2x4096x16384_S24x16384_S2x4096x24_2_1_01_0_n_n]; exact c3
  have r3 : (dot_S2x4096x16384_S24x16384_S2x4096x24_2_1_01_0_n_n).rhsIdx (ix3 b s n) ((contrEquiv1 _ 16384 rfl rfl).symm c) = ix2 n c := by
    funext ax; apply Fin.ext
    match ax with
    | ⟨0, _⟩ => simp [DotDims.rhsIdx, dot_S2x4096x16384_S24x16384_S2x4096x24_2_1_01_0_n_n]; rfl
    | ⟨1, _⟩ => simp [DotDims.rhsIdx, dot_S2x4096x16384_S24x16384_S2x4096x24_2_1_01_0_n_n]; exact c3
  rw [l3, r3, v0_apply]

/-- The row sums given a trailing unit axis read, at `(b, s, 0)`, the row sum at `(b, s)`. -/
theorem bcast_keep_apply (x : S2x4096.Idx → EReal) (b : Fin 2) (s : Fin 4096) (u : Fin 1) :
    broadcastInDim S2x4096x1 ![0, 1] bcast_S2x4096_S2x4096x1_0_1 x (ix3 b s u) = x (ix2 b s) :=
  broadcastInDim_apply _ _ x _ _ fun a => match a with | ⟨0, _⟩ => rfl | ⟨1, _⟩ => rfl

/-- A per-row value spread along the 24 logits reads, at `(b, s, n)`, the row's value at `(b, s, 0)`. -/
theorem bcast_row_apply (x : S2x4096x1.Idx → EReal) (b : Fin 2) (s : Fin 4096) (n : Fin 24) :
    broadcastInDim S2x4096x24 ![0, 1, 2] bcast_S2x4096x1_S2x4096x24_0_1_2 x (ix3 b s n) = x (ix3 b s (0 : Fin 1)) :=
  broadcastInDim_apply _ _ x _ _ fun a => match a with | ⟨0, _⟩ => rfl | ⟨1, _⟩ => rfl | ⟨2, _⟩ => rfl

set_option maxRecDepth 16384 in
/-- The reference's scaled product at `(b, s, n)` is the specification's logit `n` of row `4096·b + s`. -/
theorem res_v11_apply (V0 : Valuation τ sig (Elt Ideal)) (b : Fin 2) (s : Fin 4096) (n : Fin 24) :
    Cert.ReferenceIdeal.Value.res_main_v11 (F := Ideal) V0 (ix3 b s n)
      = Cert.MixSpec.mix (V0 (Proc.devRef .tc main_arg0)) (V0 (Proc.devRef .tc main_arg1))
          ⟨4096 * b.val + s.val, by have := b.isLt; have := s.isLt; omega⟩ n := by
  unfold res_main_v11 Cert.MixSpec.mix Cert.MixSpec.rrms
  refine (mulf_apply _ _ _).trans (congrArg₂ (· * ·) (v9_apply V0 b s n) ?_)
  refine (bcast_row_apply _ b s n).trans ?_
  refine congrArg Ideal.rsqrt (congrArg₂ (· + ·) (congrArg₂ Ideal.div ?_ ?_) ?_)
  · exact (bcast_keep_apply _ b s 0).trans (v2_apply V0 b s)
  · exact broadcastInDim_scalar_apply _ _ _
  · exact broadcastInDim_scalar_apply _ _ _

end Cert.ReferenceIdeal.RefMix

end
-- ==== Proof.Bridge.lean ====
/-
  The two programs meet.  The kernel's logits — the region's result, entry (r, n) =
  (∑ₖ X r k · W' k n) · rsqrt ((∑ₖ (X r k)²) / 16384 + ε) over the flattened hidden streams X and the transposed,
  zero-padded weights W' — and the reference's — its einsum times its broadcast rsqrt of the mean square — are the
  specification `MixSpec.mix` of the same arguments, index by index: both sums run over the same 16384 products,
  and columns 0..23 of the padded weights are the weights' rows.  No arithmetic law is needed beyond 0 + x = x.
  From equal logits, biases and scales the host lines after them, the same in both programs, give equal results.

  Each program's run is first stated over its OWN arguments as plain arrays of extended reals (`outPre`, `outPost`,
  `outComb` of the four arrays); only the last theorem sets a buffer of one program beside a buffer of the other.
-/
import proofs.«134641_j18425409700454_2_alg».proof.Defs
import proofs.«134641_j18425409700454_2_alg».proof.Proof.KValue
import proofs.«134641_j18425409700454_2_alg».proof.Proof.KPrefix
import proofs.«134641_j18425409700454_2_alg».proof.Proof.RefTail
import proofs.«134641_j18425409700454_2_alg».proof.Proof.RefMix
import proofs.«134641_j18425409700454_2_alg».proof.Proof.Gen.Pre_finite_inputs

set_option maxRecDepth 16384

noncomputable section

namespace Cert.Bridge

open Idealize.ShloMosaic Idealize.ShloMosaic.TcCoe Idealize.ShloMosaic.ValueIdx Idealize.SL.Sem
open Cert.KernelIdeal.Frame (V)

/-- The arguments' and the results' contents as plain arrays of extended reals, whichever program's buffer holds them. -/
abbrev AHid := Cert.MixSpec.SHid.Idx → EReal
abbrev AWt := Cert.MixSpec.SWt.Idx → EReal
abbrev ABase := (⟨Cert.ReferenceIdeal.S24, .f32⟩ : BufTy).Contents (Elt Ideal)
abbrev AScale := (⟨Cert.ReferenceIdeal.S3, .f32⟩ : BufTy).Contents (Elt Ideal)
abbrev AMix := (⟨Cert.ReferenceIdeal.S2x4096x24, .f32⟩ : BufTy).Contents (Elt Ideal)
abbrev AGate := (⟨Cert.ReferenceIdeal.S2x4096x4, .f32⟩ : BufTy).Contents (Elt Ideal)
abbrev AComb := (⟨Cert.ReferenceIdeal.S2x4096x4x4, .f32⟩ : BufTy).Contents (Elt Ideal)

/-- The logits [2, 4096, 24] of the hidden streams `x` and the weights `w`: logit n of row 4096·b + s at (b, s, n). -/
def specLogits (x : AHid) (w : AWt) : AMix := fun i =>
  Cert.MixSpec.mix x w (⟨4096 * (i 0).val + (i 1).val, by
    have h0 : (i 0).val < 2 := (i 0).isLt
    have h1 : (i 1).val < 4096 := (i 1).isLt
    omega⟩ : Fin 8192) (i 2)

theorem specLogits_apply (x : AHid) (w : AWt) (b : Fin 2) (s : Fin 4096) (n : Fin 24) :
    specLogits x w (ix3 b s n) = Cert.MixSpec.mix x w (⟨4096 * b.val + s.val, by omega⟩ : Fin 8192) n := rfl

/-- The three results as functions of the four arguments. -/
def outPre (x : AHid) (w : AWt) (b : ABase) (s : AScale) : AGate := Cert.Tail.pre (specLogits x w) b s
def outPost (x : AHid) (w : AWt) (b : ABase) (s : AScale) : AGate := Cert.Tail.post (specLogits x w) b s
def outComb (x : AHid) (w : AWt) (b : ABase) (s : AScale) : AComb := Cert.Tail.comb (specLogits x w) b s

/-- Two arrays over [2, 4096, 24] that agree at every (b, s, n) are equal. -/
theorem ext3 (f g : AMix) (h : ∀ (b : Fin 2) (s : Fin 4096) (n : Fin 24), f (ix3 b s n) = g (ix3 b s n)) : f = g :=
  funext fun (i : (⟨3, ![2, 4096, 24]⟩ : Shape).Idx) =>
    (congrArg f (eq_ix3 i)).trans ((h (i 0) (i 1) (i 2)).trans (congrArg g (eq_ix3 i).symm))

/-! ## The kernel program -/

/-- An entry of the region's result in the first 24 columns is the specification's logit. -/
theorem entry_eq_mix (m : (ℓ : Loc Cert.KernelIdeal.nD Cert.KernelIdeal.τ Cert.KernelIdeal.sig) → Buf (Elt Ideal) ℓ)
    (c : Dev Cert.KernelIdeal.nD) (r : Fin 8192) (n : Fin 24) :
    Cert.KernelIdeal.KMix.entry (V m c Cert.KernelIdeal.main_v0) (V m c Cert.KernelIdeal.main_v3) r (⟨n.val, by omega⟩ : Fin 128)
      = Cert.MixSpec.mix (m ((c : Thread Cert.KernelIdeal.nD Cert.KernelIdeal.τ).loc Cert.KernelIdeal.main_arg0))
          (m ((c : Thread Cert.KernelIdeal.nD Cert.KernelIdeal.τ).loc Cert.KernelIdeal.main_arg1)) r n := by
  unfold Cert.KernelIdeal.KMix.entry Cert.MixSpec.mix Cert.MixSpec.proj Cert.MixSpec.rrms Cert.MixSpec.ssq
  simp only [Cert.KernelIdeal.KPrefix.v0_apply m c, Cert.KernelIdeal.KPrefix.v3_apply m c]

/-- The region's result at (r, q) is its entry there. -/
theorem G_apply (X : Cert.KernelIdeal.S8192x16384.Idx → EReal) (Wp : Cert.KernelIdeal.S16384x128.Idx → EReal) (r : Fin 8192) (q : Fin 128) :
    Cert.KernelIdeal.KMix.G X Wp (ix2 r q) = Cert.KernelIdeal.KMix.entry X Wp r q := rfl

/-- The kernel's logits are the specification's, of its own arguments. -/
theorem kernel_logits (m : (ℓ : Loc Cert.KernelIdeal.nD Cert.KernelIdeal.τ Cert.KernelIdeal.sig) → Buf (Elt Ideal) ℓ) (c : Dev Cert.KernelIdeal.nD) :
    (Cert.KernelIdeal.KValue.logitsOf m c : AMix) = specLogits (m ((c : Thread Cert.KernelIdeal.nD Cert.KernelIdeal.τ).loc Cert.KernelIdeal.main_arg0)) (m ((c : Thread Cert.KernelIdeal.nD Cert.KernelIdeal.τ).loc Cert.KernelIdeal.main_arg1)) :=
  ext3 _ _ fun b s n =>
    (Cert.KernelIdeal.KPrefix.kmix_apply _ b s n).trans ((G_apply _ _ _ _).trans (entry_eq_mix m c _ n))

/-- The kernel program's run, its results as functions of its arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v27) = outPre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v42) = outPost (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v118) = outComb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
      ⟨(h c).1.trans (congrArg (fun L : AMix => Cert.Tail.pre L (m ((c : Thread Cert.KernelIdeal.nD Cert.KernelIdeal.τ).loc Cert.KernelIdeal.main_arg2)) (m ((c : Thread Cert.KernelIdeal.nD Cert.KernelIdeal.τ).loc Cert.KernelIdeal.main_arg3))) (kernel_logits m c)),
        (h c).2.1.trans (congrArg (fun L : AMix => Cert.Tail.post L (m ((c : Thread Cert.KernelIdeal.nD Cert.KernelIdeal.τ).loc Cert.KernelIdeal.main_arg2)) (m ((c : Thread Cert.KernelIdeal.nD Cert.KernelIdeal.τ).loc Cert.KernelIdeal.main_arg3))) (kernel_logits m c)),
        (h c).2.2.1.trans (congrArg (fun L : AMix => Cert.Tail.comb L (m ((c : Thread Cert.KernelIdeal.nD Cert.KernelIdeal.τ).loc Cert.KernelIdeal.main_arg2)) (m ((c : Thread Cert.KernelIdeal.nD Cert.KernelIdeal.τ).loc Cert.KernelIdeal.main_arg3))) (kernel_logits m c)),
        (h c).2.2.2⟩)
    (Cert.KernelIdeal.KValue.run m ρ)

/-! ## The reference program -/

/-- The reference's logits are the specification's, of its own arguments. -/
theorem reference_logits (m' : (ℓ : Loc Cert.ReferenceIdeal.nD Cert.ReferenceIdeal.τ Cert.ReferenceIdeal.sig) → Buf (Elt Ideal) ℓ) (c : Dev Cert.ReferenceIdeal.nD) :
    (Cert.ReferenceIdeal.Value.res_main_v11 (F := Ideal) (StableHlo.launchContents m' c) : AMix)
      = specLogits (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) :=
  ext3 _ _ fun b s n => Cert.ReferenceIdeal.RefMix.res_v11_apply (StableHlo.launchContents m' c) b s n

/-- The reference program's run, its results as the same functions of its arguments. -/
theorem reference_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v32) = outPre (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v47) = outPost (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v123) = outComb (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c =>
      ⟨(h c).1.trans (congrArg (fun L : AMix => Cert.Tail.pre L (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) (reference_logits m' c)),
        (h c).2.1.trans (congrArg (fun L : AMix => Cert.Tail.post L (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) (reference_logits m' c)),
        (h c).2.2.1.trans (congrArg (fun L : AMix => Cert.Tail.comb L (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) (reference_logits m' c)),
        (h c).2.2.2⟩)
    (Cert.ReferenceIdeal.RefTail.run (F := Ideal) m' ρ')

/-! ## The join -/

theorem outPre_congr {x x' : AHid} {w w' : AWt} {b b' : ABase} {s s' : AScale} (h0 : x = x') (h1 : w = w') (h2 : b = b') (h3 : s = s') :
    outPre x w b s = outPre x' w' b' s' := by rw [h0, h1, h2, h3]
theorem outPost_congr {x x' : AHid} {w w' : AWt} {b b' : ABase} {s s' : AScale} (h0 : x = x') (h1 : w = w') (h2 : b = b') (h3 : s = s') :
    outPost x w b s = outPost x' w' b' s' := by rw [h0, h1, h2, h3]
theorem outComb_congr {x x' : AHid} {w w' : AWt} {b b' : ABase} {s s' : AScale} (h0 : x = x') (h1 : w = w') (h2 : b = b') (h3 : s = s') :
    outComb x w b s = outComb x' w' b' s' := by rw [h0, h1, h2, h3]

/-- THE VALUE CLAIM: from memories agreeing on the four arguments both idealized programs run to the end with
    the same three results, their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree =>
    ⟨fun c => outPre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     fun c => outPost (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     fun c => outComb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     kernel_run m ρ,
     (θ_run Cert.ReferenceIdeal.defs _ _).mono (fun _ h c =>
        ⟨(h c).1.trans (outPre_congr (hagree c).1 (hagree c).2.1 (hagree c).2.2.1 (hagree c).2.2.2),
          (h c).2.1.trans (outPost_congr (hagree c).1 (hagree c).2.1 (hagree c).2.2.1 (hagree c).2.2.2),
          (h c).2.2.1.trans (outComb_congr (hagree c).1 (hagree c).2.1 (hagree c).2.2.1 (hagree c).2.2.2),
          (h c).2.2.2⟩)
      (reference_run m' ρ')⟩

end Cert.Bridge

end
-- ==== Proof.lean ====
/-
  The certificate of the gate-logit kernel against its reference.

  The kernel computes the gate logits — the hidden rows projected on 24 weight rows, each row scaled by its
  reciprocal root mean square — in one pipelined region (a matrix-unit product against the transposed, zero-padded
  weights, 128 rows a point) and leaves the gates (two logistic gates, a softmax with five rounds of Sinkhorn
  normalization) to host lines; the reference computes the same logits by an einsum and a mean of squares, and runs
  the same host lines on them.  Over the extended reals the two logits are one function of the arguments
  (`Proof/MixSpec.lean`: `Proof/KMix.lean`, `Proof/KPrefix.lean` and `Proof/Payload.lean` for the kernel,
  `Proof/RefMix.lean` for the reference), the host lines after them are one function of the logits
  (`Proof/Tail.lean`, `Proof/KTail.lean`, `Proof/RefTail.lean`), and `Proof/Bridge.lean` joins them.  The frames:
  each kernel program's run through its region and host lines is `Proof/FrameBits.lean` / `Proof/FrameIdeal.lean`;
  the reference's is its run with the results dropped.  The idealization rewrote nothing, so `preserves` is trivial.
-/
import proofs.«134641_j18425409700454_2_alg».proof.Defs
import proofs.«134641_j18425409700454_2_alg».proof.Proof.Gen.Kernel
import proofs.«134641_j18425409700454_2_alg».proof.Proof.Gen.Kernel.Skeleton
import proofs.«134641_j18425409700454_2_alg».proof.Proof.Gen.Kernel.Launch
import proofs.«134641_j18425409700454_2_alg».proof.Proof.Gen.Kernel.Points
import proofs.«134641_j18425409700454_2_alg».proof.Proof.Gen.KernelIdeal
import proofs.«134641_j18425409700454_2_alg».proof.Proof.Gen.KernelIdeal.Skeleton
import proofs.«134641_j18425409700454_2_alg».proof.Proof.Gen.KernelIdeal.Launch
import proofs.«134641_j18425409700454_2_alg».proof.Proof.Gen.KernelIdeal.Points
import proofs.«134641_j18425409700454_2_alg».proof.Proof.Gen.ReferenceIdeal
import proofs.«134641_j18425409700454_2_alg».proof.Proof.Gen.ReferenceIdeal.Run
import proofs.«134641_j18425409700454_2_alg».proof.Proof.Gen.Pre_finite_inputs
import proofs.«134641_j18425409700454_2_alg».proof.Proof.FrameBits
import proofs.«134641_j18425409700454_2_alg».proof.Proof.FrameIdeal
import proofs.«134641_j18425409700454_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Frame.frame m ρ,
  fun m ρ _ => Cert.KernelIdeal.Frame.frame m ρ,
  fun m ρ _ => (θ_run Cert.ReferenceIdeal.defs _ _).mono (fun _ h c => (h c).2.2.2) (Cert.ReferenceIdeal.Value.run (F := Ideal) m ρ),
  trivial,
  Cert.Bridge.algebraic⟩

end Cert.Proof

end
